-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S512x513 : Shape := ⟨2, ![512, 513]⟩
abbrev S512x512 : Shape := ⟨2, ![512, 512]⟩
abbrev S1537x1538 : Shape := ⟨2, ![1537, 1538]⟩
abbrev S1538 : Shape := ⟨1, ![1538]⟩
abbrev S1538x1538 : Shape := ⟨2, ![1538, 1538]⟩
abbrev S1538x512 : Shape := ⟨2, ![1538, 512]⟩
abbrev S512 : Shape := ⟨1, ![512]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S512x513 : S_.BroadcastsInDim S512x513 (![] : Fin 0 → Fin S512x513.rank)
  reducesTo_S512x513_S_d0_1 : S512x513.ReducesTo [0, 1] S_
  bcast_S_S512x512 : S_.BroadcastsInDim S512x512 (![] : Fin 0 → Fin S512x512.rank)
  reducesTo_S512x512_S_d0_1 : S512x512.ReducesTo [0, 1] S_
  bcast_S_S1537x1538 : S_.BroadcastsInDim S1537x1538 (![] : Fin 0 → Fin S1537x1538.rank)
  reducesTo_S1537x1538_S_d0_1 : S1537x1538.ReducesTo [0, 1] S_
  bcast_S_S1538 : S_.BroadcastsInDim S1538 (![] : Fin 0 → Fin S1538.rank)
  reducesTo_S1538_S_d0 : S1538.ReducesTo [0] S_
  bcast_S_S1538x1538 : S_.BroadcastsInDim S1538x1538 (![] : Fin 0 → Fin S1538x1538.rank)
  reducesTo_S1538x1538_S_d0_1 : S1538x1538.ReducesTo [0, 1] S_
  bcast_S_S1538x512 : S_.BroadcastsInDim S1538x512 (![] : Fin 0 → Fin S1538x512.rank)
  reducesTo_S1538x512_S_d0_1 : S1538x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S1538x512 .f32) (main_v50 : FVec F S1538x512 .f32) : IVec S_ 1 :=
  let main_v51 : IVec S1538x512 1 := cmpf .olt main_v49 main_v50
  let main_c_19 : IVec S_ 1 := constantI S_ 1 1#1
  let main_v52 : IVec S_ 1 := (fun x v => Host.reduce IntOp.andi x v reducesTo_S1538x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S1538 .f32) (main_arg8 : FVec F S1538x1538 .f32) (main_arg9 : FVec F S1538 .f32) (main_arg10 : FVec F S1538x512 .f32) (main_arg11 : FVec F S512 .f32) (main_v33 : IVec S_ 1) : IVec S_ 1 :=
  let main_v34 : FVec F S1538 .f32 := Host.absf main_arg7
  let main_cst_12 : FVec F S_ .f32 := constant S_ .f32 0x7F800000#32
  let main_v35 : FVec F S1538 .f32 := broadcastInDim S1538 ![] bcast_S_S1538 main_cst_12
  let main_v36 : IVec S1538 1 := cmpf .olt main_v34 main_v35
  let main_c_13 : IVec S_ 1 := constantI S_ 1 1#1
  let main_v37 : IVec S_ 1 := (fun x v => Host.reduce IntOp.andi x v reducesTo_S1538_S_d0 h_S_) main_v36 main_c_13
  let main_v38 : IVec S_ 1 := andi main_v33 main_v37
  let main_v39 : FVec F S1538x1538 .f32 := Host.absf main_arg8
  let main_cst_14 : FVec F S_ .f32 := constant S_ .f32 0x7F800000#32
  let main_v40 : FVec F S1538x1538 .f32 := broadcastInDim S1538x1538 ![] bcast_S_S1538x1538 main_cst_14
  let main_v41 : IVec S1538x1538 1 := cmpf .olt main_v39 main_v40
  let main_c_15 : IVec S_ 1 := constantI S_ 1 1#1
  let main_v42 : IVec S_ 1 := (fun x v => Host.reduce IntOp.andi x v reducesTo_S1538x1538_S_d0_1 h_S_) main_v41 main_c_15
  let main_v43 : IVec S_ 1 := andi main_v38 main_v42
  let main_v44 : FVec F S1538 .f32 := Host.absf main_arg9
  let main_cst_16 : FVec F S_ .f32 := constant S_ .f32 0x7F800000#32
  let main_v45 : FVec F S1538 .f32 := broadcastInDim S1538 ![] bcast_S_S1538 main_cst_16
  let main_v46 : IVec S1538 1 := cmpf .olt main_v44 main_v45
  let main_c_17 : IVec S_ 1 := constantI S_ 1 1#1
  let main_v47 : IVec S_ 1 := (fun x v => Host.reduce IntOp.andi x v reducesTo_S1538_S_d0 h_S_) main_v46 main_c_17
  let main_v48 : IVec S_ 1 := andi main_v43 main_v47
  let main_v49 : FVec F S1538x512 .f32 := Host.absf main_arg10
  let main_cst_18 : FVec F S_ .f32 := constant S_ .f32 0x7F800000#32
  let main_v50 : FVec F S1538x512 .f32 := broadcastInDim S1538x512 ![] bcast_S_S1538x512 main_cst_18
  fn_part3 (F := F) main_arg11 main_v48 main_v49 main_v50

def fn_part1 {F : FTy → Type} [FloatOps F] (main_arg4 : FVec F S1537x1538 .f32) (main_arg5 : FVec F S1538 .f32) (main_arg6 : FVec F S1538x1538 .f32) (main_arg7 : FVec F S1538 .f32) (main_arg8 : FVec F S1538x1538 .f32) (main_arg9 : FVec F S1538 .f32) (main_arg10 : FVec F S1538x512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1537x1538 .f32 := Host.absf main_arg4
  let main_cst_6 : FVec F S_ .f32 := constant S_ .f32 0x7F800000#32
  let main_v20 : FVec F S1537x1538 .f32 := broadcastInDim S1537x1538 ![] bcast_S_S1537x1538 main_cst_6
  let main_v21 : IVec S1537x1538 1 := cmpf .olt main_v19 main_v20
  let main_c_7 : IVec S_ 1 := constantI S_ 1 1#1
  let main_v22 : IVec S_ 1 := (fun x v => Host.reduce IntOp.andi x v reducesTo_S1537x1538_S_d0_1 h_S_) main_v21 main_c_7
  let main_v23 : IVec S_ 1 := andi main_v18 main_v22
  let main_v24 : FVec F S1538 .f32 := Host.absf main_arg5
  let main_cst_8 : FVec F S_ .f32 := constant S_ .f32 0x7F800000#32
  let main_v25 : FVec F S1538 .f32 := broadcastInDim S1538 ![] bcast_S_S1538 main_cst_8
  let main_v26 : IVec S1538 1 := cmpf .olt main_v24 main_v25
  let main_c_9 : IVec S_ 1 := constantI S_ 1 1#1
  let main_v27 : IVec S_ 1 := (fun x v => Host.reduce IntOp.andi x v reducesTo_S1538_S_d0 h_S_) main_v26 main_c_9
  let main_v28 : IVec S_ 1 := andi main_v23 main_v27
  let main_v29 : FVec F S1538x1538 .f32 := Host.absf main_arg6
  let main_cst_10 : FVec F S_ .f32 := constant S_ .f32 0x7F800000#32
  let main_v30 : FVec F S1538x1538 .f32 := broadcastInDim S1538x1538 ![] bcast_S_S1538x1538 main_cst_10
  let main_v31 : IVec S1538x1538 1 := cmpf .olt main_v29 main_v30
  let main_c_11 : IVec S_ 1 := constantI S_ 1 1#1
  let main_v32 : IVec S_ 1 := (fun x v => Host.reduce IntOp.andi x v reducesTo_S1538x1538_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1 .f32) (main_arg1 : FVec F S512x513 .f32) (main_arg2 : FVec F S512x512 .f32) (main_arg3 : FVec F S512x512 .f32) (main_arg4 : FVec F S1537x1538 .f32) (main_arg5 : FVec F S1538 .f32) (main_arg6 : FVec F S1538x1538 .f32) (main_arg7 : FVec F S1538 .f32) (main_arg8 : FVec F S1538x1538 .f32) (main_arg9 : FVec F S1538 .f32) (main_arg10 : FVec F S1538x512 .f32) (main_arg11 : FVec F S512 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S512x513 .f32 := Host.absf main_arg1
  let main_cst_0 : FVec F S_ .f32 := constant S_ .f32 0x7F800000#32
  let main_v5 : FVec F S512x513 .f32 := broadcastInDim S512x513 ![] bcast_S_S512x513 main_cst_0
  let main_v6 : IVec S512x513 1 := cmpf .olt main_v4 main_v5
  let main_c_1 : IVec S_ 1 := constantI S_ 1 1#1
  let main_v7 : IVec S_ 1 := (fun x v => Host.reduce IntOp.andi x v reducesTo_S512x513_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_v13 main_v16
-- ==== Kernel.lean ====
abbrev S1 : Shape := ⟨1, ![1]⟩
abbrev S512x513 : Shape := ⟨2, ![512, 513]⟩
abbrev S512x512 : Shape := ⟨2, ![512, 512]⟩
abbrev S1537x1538 : Shape := ⟨2, ![1537, 1538]⟩
abbrev S1538 : Shape := ⟨1, ![1538]⟩
abbrev S1538x1538 : Shape := ⟨2, ![1538, 1538]⟩
abbrev S1538x512 : Shape := ⟨2, ![1538, 512]⟩
abbrev S512 : Shape := ⟨1, ![512]⟩
abbrev S512x1538 : Shape := ⟨2, ![512, 1538]⟩
abbrev S1x1538 : Shape := ⟨2, ![1, 1538]⟩
abbrev S_ : Shape := ⟨0, ![]⟩
abbrev S512x1 : Shape := ⟨2, ![512, 1]⟩
abbrev S256x513 : Shape := ⟨2, ![256, 513]⟩
abbrev S256x512 : Shape := ⟨2, ![256, 512]⟩
abbrev S256x1 : Shape := ⟨2, ![256, 1]⟩
abbrev S256x1538 : Shape := ⟨2, ![256, 1538]⟩
abbrev S1x512 : Shape := ⟨2, ![1, 512]⟩
abbrev S256 : Shape := ⟨1, ![256]⟩

abbrev nBuf : Space → Nat
  | .hbm => 33
  | .vmem => 19
  | .smem => 0
  | _ => 0

abbrev bufTy : (tb : Table) → Fin (tcTables nBuf tb) → BufTy
  | .hbm, ⟨0, _⟩ => ⟨S1, .f32⟩
  | .hbm, ⟨1, _⟩ => ⟨S512x513, .f32⟩
  | .hbm, ⟨2, _⟩ => ⟨S512x512, .f32⟩
  | .hbm, ⟨3, _⟩ => ⟨S512x512, .f32⟩
  | .hbm, ⟨4, _⟩ => ⟨S1537x1538, .f32⟩
  | .hbm, ⟨5, _⟩ => ⟨S1538, .f32⟩
  | .hbm, ⟨6, _⟩ => ⟨S1538x1538, .f32⟩
  | .hbm, ⟨7, _⟩ => ⟨S1538, .f32⟩
  | .hbm, ⟨8, _⟩ => ⟨S1538x1538, .f32⟩
  | .hbm, ⟨9, _⟩ => ⟨S1538, .f32⟩
  | .hbm, ⟨10, _⟩ => ⟨S1538x512, .f32⟩
  | .hbm, ⟨11, _⟩ => ⟨S512, .f32⟩
  | .hbm, ⟨12, _⟩ => ⟨S512x1538, .f32⟩
  | .hbm, ⟨13, _⟩ => ⟨S512x1538, .bf16⟩
  | .hbm, ⟨14, _⟩ => ⟨S512x1538, .f32⟩
  | .hbm, ⟨15, _⟩ => ⟨S512x1538, .bf16⟩
  | .hbm, ⟨16, _⟩ => ⟨S1x1538, .f32⟩
  | .hbm, ⟨17, _⟩ => ⟨S1538, .f32⟩
  | .hbm, ⟨18, _⟩ => ⟨S512x1538, .f32⟩
  | .hbm, ⟨19, _⟩ => ⟨S512x1538, .bf16⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1538, .f32⟩
  | .hbm, ⟨24, _⟩ => ⟨S1538, .f32⟩
  | .hbm, ⟨25, _⟩ => ⟨S1538, .f32⟩
  | .hbm, ⟨26, _⟩ => ⟨S512x512, .bf16⟩
  | .hbm, ⟨27, _⟩ => ⟨S1538x1538, .bf16⟩
  | .hbm, ⟨28, _⟩ => ⟨S1538x1538, .bf16⟩
  | .hbm, ⟨29, _⟩ => ⟨S1538x512, .bf16⟩
  | .hbm, ⟨30, _⟩ => ⟨S512x512, .f32⟩
  | .hbm, ⟨31, _⟩ => ⟨S512x1, .f32⟩
  | .hbm, ⟨32, _⟩ => ⟨S512x513, .f32⟩
  | .local _ .vmem, ⟨0, _⟩ => ⟨S256x513, .f32⟩
  | .local _ .vmem, ⟨1, _⟩ => ⟨S256x513, .f32⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S512x1538, .bf16⟩
  | .local _ .vmem, ⟨6, _⟩ => ⟨S512x1538, .bf16⟩
  | .local _ .vmem, ⟨7, _⟩ => ⟨S512x1538, .bf16⟩
  | .local _ .vmem, ⟨8, _⟩ => ⟨S1538, .f32⟩
  | .local _ .vmem, ⟨9, _⟩ => ⟨S1538x1538, .bf16⟩
  | .local _ .vmem, ⟨10, _⟩ => ⟨S1538, .f32⟩
  | .local _ .vmem, ⟨11, _⟩ => ⟨S1538x1538, .bf16⟩
  | .local _ .vmem, ⟨12, _⟩ => ⟨S1538, .f32⟩
  | .local _ .vmem, ⟨13, _⟩ => ⟨S1538x512, .bf16⟩
  | .local _ .vmem, ⟨14, _⟩ => ⟨S512, .f32⟩
  | .local _ .vmem, ⟨15, _⟩ => ⟨S256x512, .f32⟩
  | .local _ .vmem, ⟨16, _⟩ => ⟨S256x512, .f32⟩
  | .local _ .vmem, ⟨17, _⟩ => ⟨S256x1, .f32⟩
  | .local _ .vmem, ⟨18, _⟩ => ⟨S256x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1538 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1538 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1538 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1538 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1538x1538 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1538 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1538x1538 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1538 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1538x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S1537x1538_S512x1538_0_0 : S1537x1538.Slices ![0, 0] S512x1538
  bitsLt_bf16_f32 : FTy.bits .bf16 < FTy.bits .f32
  slices_S1537x1538_S512x1538_512_0 : S1537x1538.Slices ![512, 0] S512x1538
  slices_S1537x1538_S1x1538_1024_0 : S1537x1538.Slices ![1024, 0] S1x1538
  shapeCasts_S1x1538_S1538 : S1x1538.ShapeCasts S1538
  slices_S1537x1538_S512x1538_1025_0 : S1537x1538.Slices ![1025, 0] S512x1538
  shapeCasts_S1_S_ : S1.ShapeCasts S_
  bcast_S_S1538 : S_.BroadcastsInDim S1538 (![] : Fin 0 → Fin S1538.rank)
  inb_S256x513_S256x512_0_0 : ∀ a, (![0, 0] : Fin 2 → Nat) a + S256x512.size a ≤ S256x513.size a
  h_S256x512 : 0 < S256x512.numel
  inb_S256x512_S256x512_0_0 : ∀ a, (![0, 0] : Fin 2 → Nat) a + S256x512.size a ≤ S256x512.size a
  inb_S512x1538_S512x1538_0_0 : ∀ a, (![0, 0] : Fin 2 → Nat) a + S512x1538.size a ≤ S512x1538.size a
  h_S512x1538 : 0 < S512x1538.numel
  shapeCasts_S512x1538_S512x1538 : S512x1538.ShapeCasts S512x1538
  inb_S1538_S1538_0 : ∀ a, (![0] : Fin 1 → Nat) a + S1538.size a ≤ S1538.size a
  h_S1538 : 0 < S1538.numel
  shapeCasts_S1538_S1538 : S1538.ShapeCasts S1538
  shapeCasts_S1538_S1x1538 : S1538.ShapeCasts S1x1538
  broadcasts_S1x1538_S256x1538 : S1x1538.Broadcasts S256x1538
  inb_S1538x1538_S1538x1538_0_0 : ∀ a, (![0, 0] : Fin 2 → Nat) a + S1538x1538.size a ≤ S1538x1538.size a
  h_S1538x1538 : 0 < S1538x1538.numel
  shapeCasts_S1538x1538_S1538x1538 : S1538x1538.ShapeCasts S1538x1538
  inb_S1538x512_S1538x512_0_0 : ∀ a, (![0, 0] : Fin 2 → Nat) a + S1538x512.size a ≤ S1538x512.size a
  h_S1538x512 : 0 < S1538x512.numel
  shapeCasts_S1538x512_S1538x512 : S1538x512.ShapeCasts S1538x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S256x512_S256 : S256x512.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  concatenates_S512x512_S512x1_S512x513_d1 : Shape.Concatenates [S512x512, S512x1] S512x513 1
  dot_S256x512_S512x1538_S256x1538_1_0_0_1_n_n_wf : DotDims.WF S256x512 S512x1538 S256x1538 [1] [0] [0] [1] [] []
  dot_S256x1538_S1538x1538_S256x1538_1_0_0_1_n_n_wf : DotDims.WF S256x1538 S1538x1538 S256x1538 [1] [0] [0] [1] [] []
  dot_S256x1538_S1538x512_S256x512_1_0_0_1_n_n_wf : DotDims.WF S256x1538 S1538x512 S256x512 [1] [0] [0] [1] [] []
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x513.size a ≤ S512x513.size a
  hwx0_0 : ∀ i : grid0.Coords, EltTy.bits .f32 = 32 ∨ (Rect.block (s := S512x513) S256x513.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S512x512.size a
  hwx0_1 : ∀ i : grid0.Coords, EltTy.bits .f32 = 32 ∨ (Rect.block (s := S512x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1538.size a ≤ S512x1538.size a
  hwx0_3 : ∀ i : grid0.Coords, EltTy.bits .bf16 = 32 ∨ (Rect.block (s := S512x1538) S512x1538.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1538.size a ≤ S512x1538.size a
  hwx0_4 : ∀ i : grid0.Coords, EltTy.bits .bf16 = 32 ∨ (Rect.block (s := S512x1538) S512x1538.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1538.size a ≤ S512x1538.size a
  hwx0_5 : ∀ i : grid0.Coords, EltTy.bits .bf16 = 32 ∨ (Rect.block (s := S512x1538) S512x1538.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1538.size a ≤ S1538.size a
  hwx0_6 : ∀ i : grid0.Coords, EltTy.bits .f32 = 32 ∨ (Rect.block (s := S1538) S1538.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1538x1538.size a ≤ S1538x1538.size a
  hwx0_7 : ∀ i : grid0.Coords, EltTy.bits .bf16 = 32 ∨ (Rect.block (s := S1538x1538) S1538x1538.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1538.size a ≤ S1538.size a
  hwx0_8 : ∀ i : grid0.Coords, EltTy.bits .f32 = 32 ∨ (Rect.block (s := S1538) S1538.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1538x1538.size a ≤ S1538x1538.size a
  hwx0_9 : ∀ i : grid0.Coords, EltTy.bits .bf16 = 32 ∨ (Rect.block (s := S1538x1538) S1538x1538.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1538.size a ≤ S1538.size a
  hwx0_10 : ∀ i : grid0.Coords, EltTy.bits .f32 = 32 ∨ (Rect.block (s := S1538) S1538.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1538x512.size a ≤ S1538x512.size a
  hwx0_11 : ∀ i : grid0.Coords, EltTy.bits .bf16 = 32 ∨ (Rect.block (s := S1538x512) S1538x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S512x512.size a
  hwx0_13 : ∀ i : grid0.Coords, EltTy.bits .f32 = 32 ∨ (Rect.block (s := S512x512) S256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S512x1.size a
  hwx0_14 : ∀ i : grid0.Coords, EltTy.bits .f32 = 32 ∨ (Rect.block (s := S512x1) S256x1.size (cc0_transform_14 i) (hinb0_14 i)).WholeWords (EltTy.packing .f32)

variable [Facts₀]

def dot_S256x512_S512x1538_S256x1538_1_0_0_1_n_n : DotDims S256x512 S512x1538 S256x1538 where
  lhsContracting := [1]
  rhsContracting := [0]
  lhsNonContracting := [0]
  rhsNonContracting := [1]
  lhsBatch := []
  rhsBatch := []
  wf := dot_S256x512_S512x1538_S256x1538_1_0_0_1_n_n_wf
def dot_S256x1538_S1538x1538_S256x1538_1_0_0_1_n_n : DotDims S256x1538 S1538x1538 S256x1538 where
  lhsContracting := [1]
  rhsContracting := [0]
  lhsNonContracting := [0]
  rhsNonContracting := [1]
  lhsBatch := []
  rhsBatch := []
  wf := dot_S256x1538_S1538x1538_S256x1538_1_0_0_1_n_n_wf
def dot_S256x1538_S1538x512_S256x512_1_0_0_1_n_n : DotDims S256x1538 S1538x512 S256x512 where
  lhsContracting := [1]
  rhsContracting := [0]
  lhsNonContracting := [0]
  rhsNonContracting := [1]
  lhsBatch := []
  rhsBatch := []
  wf := dot_S256x1538_S1538x512_S256x512_1_0_0_1_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg1) S256x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1538.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1538.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1538.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1538.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1538x1538.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1538.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1538x1538.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1538.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1538x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17_0) S256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17_1) S256x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1 : Shape := ⟨1, ![1]⟩
abbrev S512x513 : Shape := ⟨2, ![512, 513]⟩
abbrev S512x512 : Shape := ⟨2, ![512, 512]⟩
abbrev S1537x1538 : Shape := ⟨2, ![1537, 1538]⟩
abbrev S1538 : Shape := ⟨1, ![1538]⟩
abbrev S1538x1538 : Shape := ⟨2, ![1538, 1538]⟩
abbrev S1538x512 : Shape := ⟨2, ![1538, 512]⟩
abbrev S512 : Shape := ⟨1, ![512]⟩
abbrev S_ : Shape := ⟨0, ![]⟩
abbrev S512x1 : Shape := ⟨2, ![512, 1]⟩
abbrev S512x1537 : Shape := ⟨2, ![512, 1537]⟩
abbrev S512x1538 : Shape := ⟨2, ![512, 1538]⟩
abbrev S1x1538 : Shape := ⟨2, ![1, 1538]⟩
abbrev S1x512 : Shape := ⟨2, ![1, 512]⟩
abbrev S512x1x512 : Shape := ⟨3, ![512, 1, 512]⟩
abbrev S512x512x1 : Shape := ⟨3, ![512, 512, 1]⟩
abbrev S512x512x512 : Shape := ⟨3, ![512, 512, 512]⟩
abbrev S1x512x512 : Shape := ⟨3, ![1, 512, 512]⟩

abbrev nBuf : Space → Nat
  | .hbm => 63
  | .vmem => 0
  | .smem => 0
  | _ => 0

abbrev bufTy : (tb : Table) → Fin (tcTables nBuf tb) → BufTy
  | .hbm, ⟨0, _⟩ => ⟨S1, .f32⟩
  | .hbm, ⟨1, _⟩ => ⟨S512x513, .f32⟩
  | .hbm, ⟨2, _⟩ => ⟨S512x512, .f32⟩
  | .hbm, ⟨3, _⟩ => ⟨S512x512, .f32⟩
  | .hbm, ⟨4, _⟩ => ⟨S1537x1538, .f32⟩
  | .hbm, ⟨5, _⟩ => ⟨S1538, .f32⟩
  | .hbm, ⟨6, _⟩ => ⟨S1538x1538, .f32⟩
  | .hbm, ⟨7, _⟩ => ⟨S1538, .f32⟩
  | .hbm, ⟨8, _⟩ => ⟨S1538x1538, .f32⟩
  | .hbm, ⟨9, _⟩ => ⟨S1538, .f32⟩
  | .hbm, ⟨10, _⟩ => ⟨S1538x512, .f32⟩
  | .hbm, ⟨11, _⟩ => ⟨S512, .f32⟩
  | .hbm, ⟨12, _⟩ => ⟨S512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S512x1537, .f32⟩
  | .hbm, ⟨20, _⟩ => ⟨S512x1538, .f32⟩
  | .hbm, ⟨21, _⟩ => ⟨S1x1538, .f32⟩
  | .hbm, ⟨22, _⟩ => ⟨S512x1538, .f32⟩
  | .hbm, ⟨23, _⟩ => ⟨S512x1538, .f32⟩
  | .hbm, ⟨24, _⟩ => ⟨S512x1538, .f32⟩
  | .hbm, ⟨25, _⟩ => ⟨S512x1538, .f32⟩
  | .hbm, ⟨26, _⟩ => ⟨S1x1538, .f32⟩
  | .hbm, ⟨27, _⟩ => ⟨S512x1538, .f32⟩
  | .hbm, ⟨28, _⟩ => ⟨S512x1538, .f32⟩
  | .hbm, ⟨29, _⟩ => ⟨S512x1538, .f32⟩
  | .hbm, ⟨30, _⟩ => ⟨S512x1538, .f32⟩
  | .hbm, ⟨31, _⟩ => ⟨S1x1538, .f32⟩
  | .hbm, ⟨32, _⟩ => ⟨S512x1538, .f32⟩
  | .hbm, ⟨33, _⟩ => ⟨S512x1538, .f32⟩
  | .hbm, ⟨34, _⟩ => ⟨S512x1538, .f32⟩
  | .hbm, ⟨35, _⟩ => ⟨S512x512, .f32⟩
  | .hbm, ⟨36, _⟩ => ⟨S1x512, .f32⟩
  | .hbm, ⟨37, _⟩ => ⟨S512x512, .f32⟩
  | .hbm, ⟨38, _⟩ => ⟨S512x512, .f32⟩
  | .hbm, ⟨39, _⟩ => ⟨S512x1x512, .f32⟩
  | .hbm, ⟨40, _⟩ => ⟨S512x512x1, .f32⟩
  | .hbm, ⟨41, _⟩ => ⟨S512x512x512, .f32⟩
  | .hbm, ⟨42, _⟩ => ⟨S512x512x512, .f32⟩
  | .hbm, ⟨43, _⟩ => ⟨S512x512x512, .f32⟩
  | .hbm, ⟨44, _⟩ => ⟨S512x512x512, .f32⟩
  | .hbm, ⟨45, _⟩ => ⟨S1x512x512, .f32⟩
  | .hbm, ⟨46, _⟩ => ⟨S512x512x512, .f32⟩
  | .hbm, ⟨47, _⟩ => ⟨S512x512x512, .f32⟩
  | .hbm, ⟨48, _⟩ => ⟨S_, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S512x513, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S512x513_S512x512_0_0 : S512x513.Slices ![0, 0] S512x512
  shapeCasts_S1_S_ : S1.ShapeCasts S_
  bcast_S_S512x1 : S_.BroadcastsInDim S512x1 (![] : Fin 0 → Fin S512x1.rank)
  concatenates_S512x512_S512x512_S512x1_S512x512_S512x1537_d1 : Shape.Concatenates [S512x512, S512x512, S512x1, S512x512] S512x1537 1
  bcast_S1538_S1x1538_1 : S1538.BroadcastsInDim S1x1538 (![1] : Fin 1 → Fin S1x1538.rank)
  bcast_S1x1538_S512x1538_0_1 : S1x1538.BroadcastsInDim S512x1538 (![0, 1] : Fin 2 → Fin S512x1538.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  bcast_S_S512x512 : S_.BroadcastsInDim S512x512 (![] : Fin 0 → Fin S512x512.rank)
  reducesTo_S512x512_S512_d1 : S512x512.ReducesTo [1] S512
  bcast_S512_S512x1_0 : S512.BroadcastsInDim S512x1 (![0] : Fin 1 → Fin S512x1.rank)
  concatenates_S512x512_S512x1_S512x513_d1 : Shape.Concatenates [S512x512, S512x1] S512x513 1
  dot_S512x1537_S1537x1538_S512x1538_1_0_0_1_n_n_wf : DotDims.WF S512x1537 S1537x1538 S512x1538 [1] [0] [0] [1] [] []
  dot_S512x1538_S1538x1538_S512x1538_1_0_0_1_n_n_wf : DotDims.WF S512x1538 S1538x1538 S512x1538 [1] [0] [0] [1] [] []
  dot_S512x1538_S1538x512_S512x512_1_0_0_1_n_n_wf : DotDims.WF S512x1538 S1538x512 S512x512 [1] [0] [0] [1] [] []

variable [Facts₀]

def dot_S512x1537_S1537x1538_S512x1538_1_0_0_1_n_n : DotDims S512x1537 S1537x1538 S512x1538 where
  lhsContracting := [1]
  rhsContracting := [0]
  lhsNonContracting := [0]
  rhsNonContracting := [1]
  lhsBatch := []
  rhsBatch := []
  wf := dot_S512x1537_S1537x1538_S512x1538_1_0_0_1_n_n_wf
def dot_S512x1538_S1538x1538_S512x1538_1_0_0_1_n_n : DotDims S512x1538 S1538x1538 S512x1538 where
  lhsContracting := [1]
  rhsContracting := [0]
  lhsNonContracting := [0]
  rhsNonContracting := [1]
  lhsBatch := []
  rhsBatch := []
  wf := dot_S512x1538_S1538x1538_S512x1538_1_0_0_1_n_n_wf
def dot_S512x1538_S1538x512_S512x512_1_0_0_1_n_n : DotDims S512x1538 S1538x512 S512x512 where
  lhsContracting := [1]
  rhsContracting := [0]
  lhsNonContracting := [0]
  rhsNonContracting := [1]
  lhsBatch := []
  rhsBatch := []
  wf := dot_S512x1538_S1538x512_S512x512_1_0_0_1_n_n_wf

class Facts : Prop extends Facts₀ where

variable [Facts]
-- ==== Proof.Spec.lean ====
/-
  The function both programs compute, row by row.

  A row of the batch carries 512 phases `y` and 512 frequencies `f`. A three-hidden-layer tanh network reads
  (cos y, sin y, a time entry, f) and returns a coupling strength per oscillator; the first layer is written here in the
  split form: three 512-long contractions with three row-slices of the first weight matrix, the time entry already folded
  into the bias. The pairwise term Σ_j sin(y_j − y_i)·A[i,j] is written in its product form
  cos(y_i)·Σ_j sin(y_j)·A[i,j] − sin(y_i)·Σ_j cos(y_j)·A[i,j]. The force on oscillator i is
  (1 · coupling_i · pair_i) / 512 + f_i, and the row's last entry is Σ_i coupling_i².
-/
import Idealize.ShloMosaic.Lib.ValueIdx
import Idealize.ShloMosaic.PureOps.Ideal

noncomputable section

open scoped BigOperators

namespace Cert.Osc

open Idealize.ShloMosaic Idealize.ShloMosaic.ValueIdx

/-- A matrix of extended reals with `r` rows and `c` columns, indexed as the programs' arrays are. -/
abbrev Mat (r c : ℕ) := (⟨2, ![r, c]⟩ : Shape).Idx → EReal
/-- A vector of extended reals of length `c`. -/
abbrev Row (c : ℕ) := (⟨1, ![c]⟩ : Shape).Idx → EReal

/-- A row vector times a matrix: entry `q` is Σ_l x_l · W[l, q]. -/
def contract {K N : ℕ} (x : Fin K → EReal) (W : Mat K N) (q : Fin N) : EReal := ∑ l : Fin K, x l * W (ix2 l q)

/-- The first hidden layer, split: tanh of cos y · Wc + sin y · Ws + f · Wf + bias. -/
def hidden0 (yr fr : Fin 512 → EReal) (Wc Ws Wf : Mat 512 1538) (be : Row 1538) (j : Fin 1538) : EReal :=
  Ideal.tanh (((contract (fun l => Ideal.cos (yr l)) Wc j + contract (fun l => Ideal.sin (yr l)) Ws j)
    + contract fr Wf j) + be (ix1 j))

/-- A hidden layer: tanh of h · W + b. -/
def hidden {K N : ℕ} (h : Fin K → EReal) (W : Mat K N) (b : Row N) (j : Fin N) : EReal :=
  Ideal.tanh (contract h W j + b (ix1 j))

/-- The network's output for one row: the coupling strength of each oscillator. -/
def coupling (yr fr : Fin 512 → EReal) (Wc Ws Wf : Mat 512 1538) (be : Row 1538) (W1 : Mat 1538 1538) (b1 : Row 1538)
    (W2 : Mat 1538 1538) (b2 : Row 1538) (W3 : Mat 1538 512) (b3 : Row 512) (i : Fin 512) : EReal :=
  contract (hidden (hidden (hidden0 yr fr Wc Ws Wf be) W1 b1) W2 b2) W3 i + b3 (ix1 i)

/-- The pairwise term in product form: cos(y_i)·Σ_j sin(y_j)·A[i,j] − sin(y_i)·Σ_j cos(y_j)·A[i,j]. -/
def pairSum (yr : Fin 512 → EReal) (A : Mat 512 512) (i : Fin 512) : EReal :=
  Ideal.cos (yr i) * (∑ j : Fin 512, Ideal.sin (yr j) * A (ix2 i j))
    - Ideal.sin (yr i) * (∑ j : Fin 512, Ideal.cos (yr j) * A (ix2 i j))

/-- The force on oscillator `i`: (1 · coupling_i · pair_i) / 512 + f_i, the two literals as the programs spell them. -/
def forceAt (cf fs fr : Fin 512 → EReal) (i : Fin 512) : EReal :=
  Ideal.div ((Ideal.ofBits .f32 0x3F800000#32 * cf i) * fs i) (Ideal.ofBits .f32 0x44000000#32) + fr i

/-- The row's last entry: the sum of the squared coupling strengths. -/
def energy (cf : Fin 512 → EReal) : EReal := ∑ i : Fin 512, cf i * cf i

end Cert.Osc

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  What the kernel's body stores, read at an entry.

  The body works on a block of 256 rows. Each of its two stored values, read at row `p`, depends only on row `p` of
  the phase block and of the frequency block (and on the whole weight arrays): the stored force block at `(p, i)` is
  `forceAt` of that row's coupling strengths and pairwise term, and the stored column at `(p, 0)` is that row's
  `energy`. A matrix-unit product into a zero accumulator is the sum over the contraction index, a bias is one row
  broadcast over all rows, a change of float format is the identity at the exact reading.
-/
import proofs.«104526_j37512244363645_2_alg».proof.Proof.Gen.KernelIdeal.Skeleton
import proofs.«104526_j37512244363645_2_alg».proof.Proof.Spec
import proofs.«104526_j37512244363645_2_alg».proof.Proof.LibPlainDot
import proofs.«104526_j37512244363645_2_alg».proof.Proof.LibMatmulNT
import proofs.«104526_j37512244363645_2_alg».proof.Proof.LibColumn
import Idealize.ShloMosaic.Lib.ValueLayout
import Idealize.ShloMosaic.Lib.Pipeline.Value
import Idealize.ShloMosaic.PureOps.Ideal.Laws

noncomputable section

open scoped BigOperators

namespace Cert.Osc

open Idealize.ShloMosaic Idealize.ShloMosaic.ValueIdx Cert.KernelIdeal Cert.KernelIdeal.Gen

/-- A length-`N` bias viewed as one row and broadcast over `n` rows reads, at `(p, q)`, the bias at `q`. -/
theorem bias_apply {n N : ℕ} (b : (⟨1, ![N]⟩ : Shape).Idx → EReal) (h1 : (⟨1, ![N]⟩ : Shape).ShapeCasts ⟨2, ![1, N]⟩)
    (h2 : (⟨2, ![1, N]⟩ : Shape).Broadcasts ⟨2, ![n, N]⟩) (p : Fin n) (q : Fin N) :
    broadcastTo ⟨2, ![n, N]⟩ (shapeCast ⟨2, ![1, N]⟩ b h1) h2 (ix2 p q) = b (ix1 q) :=
  (broadcastTo_1b_ab_apply _ h2 p q).trans (shapeCast_a_1a_apply b h1 0 q)

/-- A product X·W into the zero accumulator plus a broadcast bias, at `(p, q)`: row `p` of X contracted with W,
    plus the bias at `q`. -/
theorem dense_apply {n K N : ℕ} {φ₁ φ₂ : FTy} (X : FVec Ideal ⟨2, ![n, K]⟩ φ₁) (W : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![n, N]⟩) (p : Fin n) (q : Fin N) :
    addf (matmul (DotDims.plain n K N) none X W (constant ⟨2, ![n, N]⟩ .f32 0x00000000#32))
        (broadcastTo ⟨2, ![n, N]⟩ (shapeCast ⟨2, ![1, N]⟩ b h1) h2) (ix2 p q)
      = contract (fun l => X (ix2 p l)) W q + b (ix1 q) := by
  show matmul (DotDims.plain n K N) none X W (constant ⟨2, ![n, N]⟩ .f32 0x00000000#32) (ix2 p q)
      + broadcastTo ⟨2, ![n, N]⟩ (shapeCast ⟨2, ![1, N]⟩ b h1) h2 (ix2 p q) = _
  rw [bias_apply]
  exact congrArg (· + b (ix1 q)) (LibPlainDot.matmul_zero_apply none X W p q)

theorem dotA_eq : dot_S256x512_S512x1538_S256x1538_1_0_0_1_n_n = DotDims.plain 256 512 1538 := rfl
theorem dotB_eq : dot_S256x1538_S1538x1538_S256x1538_1_0_0_1_n_n = DotDims.plain 256 1538 1538 := rfl
theorem dotC_eq : dot_S256x1538_S1538x512_S256x512_1_0_0_1_n_n = DotDims.plain 256 1538 512 := rfl

/-- The value carried out of the first part of the body, at `(p, q)`: the second hidden layer of row `p`
    contracted with the third weight matrix. -/
theorem pay8_apply (v0 v1 : Vec Ideal S256x512 .f32) (v7 v10 v14 : Vec Ideal S512x1538 .bf16) (v18 : Vec Ideal S1538 .f32)
    (v25 : Vec Ideal S1538x1538 .bf16) (v28 : Vec Ideal S1538 .f32) (v34 : Vec Ideal S1538x1538 .bf16)
    (p : Fin 256) (q : Fin 1538) :
    k0_pay8 (F := Ideal) v0 v1 v7 v10 v14 v18 v25 v28 v34 (ix2 p q)
      = contract (hidden (hidden0 (fun l => v0 (ix2 p l)) (fun l => v1 (ix2 p l)) v7 v10 v14 v18) v25 v28) v34 q := by
  unfold k0_pay8 k0_pay6 k0_pay7 k0_pay4 k0_pay5
  simp only [shapeCast_self, dotA_eq, dotB_eq]
  refine (LibPlainDot.matmul_zero_apply (φ₁ := .bf16) (φ₂ := .bf16) none _ v34 p q).trans ?_
  refine Finset.sum_congr rfl fun l _ => congrArg (· * v34 (ix2 l q)) ?_
  refine congrArg Ideal.tanh ((dense_apply (φ₁ := .bf16) (φ₂ := .bf16) _ v25 v28 _ _ p l).trans ?_)
  refine congrArg (· + v28 (ix1 l)) (Finset.sum_congr rfl fun k _ => congrArg (· * v25 (ix2 k l)) ?_)
  refine congrArg Ideal.tanh ?_
  exact congrArg₂ (· + ·) (congrArg₂ (· + ·) (congrArg₂ (· + ·)
      (LibPlainDot.matmul_zero_apply (φ₁ := .bf16) (φ₂ := .bf16) none _ v7 p k)
      (LibPlainDot.matmul_zero_apply (φ₁ := .bf16) (φ₂ := .bf16) none _ v10 p k))
      (LibPlainDot.matmul_zero_apply (φ₁ := .bf16) (φ₂ := .bf16) none _ v14 p k))
    (bias_apply v18 _ _ p k)

/-- The coupling strengths the body computes, at `(p, i)`. -/
theorem pay1_apply (v36 : FVec Ideal S256x1538 .f32) (v37 : Vec Ideal S1538 .f32) (v43 : Vec Ideal S1538x512 .bf16)
    (v46 : Vec Ideal S512 .f32) (p : Fin 256) (i : Fin 512) :
    k0_pay1 (F := Ideal) v36 v37 v43 v46 (ix2 p i)
      = contract (fun l => Ideal.tanh (v36 (ix2 p l) + v37 (ix1 l))) v43 i + v46 (ix1 i) := by
  unfold k0_pay1
  simp only [shapeCast_self, dotC_eq]
  refine (dense_apply (φ₁ := .bf16) (φ₂ := .bf16) _ v43 v46 _ _ p i).trans ?_
  refine congrArg (· + v46 (ix1 i)) (Finset.sum_congr rfl fun l _ => congrArg (· * v43 (ix2 l i)) ?_)
  refine congrArg Ideal.tanh ?_
  exact congrArg (v36 (ix2 p l) + ·) (bias_apply v37 _ _ p l)

theorem dotNT_eq : dot_S256x512_S512x512_S256x512_1_1_0_0_n_n
    = (⟨[1], [1], [0], [0], [], [], dot_S256x512_S512x512_S256x512_1_1_0_0_n_n_wf⟩ : DotDims S256x512 S512x512 S256x512) := rfl

/-- The stored force block at `(p, i)`, from the body's intermediate values: with `c` and `s` the cosines and
    sines of row `p`'s phases, the pairwise term is c_i · Σ_j s_j · A[i,j] − s_i · Σ_j c_j · A[i,j]. -/
theorem pay2_apply (v1 : Vec Ideal S256x512 .f32) (v2 v3 : FVec Ideal S256x512 .f32) (v4 v5 : FVec Ideal S256x512 .bf16)
    (v36 : FVec Ideal S256x1538 .f32) (v37 : Vec Ideal S1538 .f32) (v43 : Vec Ideal S1538x512 .bf16) (v46 : Vec Ideal S512 .f32)
    (v50 : Vec Ideal S512x512 .bf16) (p : Fin 256) (i : Fin 512) :
    k0_pay2 (F := Ideal) v1 v2 v3 v4 v5 v36 v37 v43 v46 v50 (ix2 p i)
      = Ideal.div ((Ideal.ofBits .f32 0x3F800000#32 * k0_pay1 (F := Ideal) v36 v37 v43 v46 (ix2 p i))
          * (v2 (ix2 p i) * (∑ j : Fin 512, v5 (ix2 p j) * v50 (ix2 i j))
              - v3 (ix2 p i) * (∑ j : Fin 512, v4 (ix2 p j) * v50 (ix2 i j))))
          (Ideal.ofBits .f32 0x44000000#32) + v1 (ix2 p i) := by
  unfold k0_pay2
  simp only [shapeCast_self, dotNT_eq]
  exact congrArg (fun z => Ideal.div ((Ideal.ofBits .f32 0x3F800000#32 * k0_pay1 (F := Ideal) v36 v37 v43 v46 (ix2 p i)) * z)
      (Ideal.ofBits .f32 0x44000000#32) + v1 (ix2 p i))
    (congrArg₂ (fun a b => v2 (ix2 p i) * a - v3 (ix2 p i) * b)
      (Cert.Gram.matmul_nt_zero_apply (φ₁ := .bf16) (φ₂ := .bf16) dot_S256x512_S512x512_S256x512_1_1_0_0_n_n_wf none v5 v50 p i)
      (Cert.Gram.matmul_nt_zero_apply (φ₁ := .bf16) (φ₂ := .bf16) dot_S256x512_S512x512_S256x512_1_1_0_0_n_n_wf none v4 v50 p i))

/-- A row index of a 256-vector with column `k` put back is `(p, k)`. -/
theorem lift_row (h : S256x512.Reduces [1] S256) (p : Fin 256) (k : Fin (S256x512.size 1)) :
    h.lift (ix1 p) k = ix2 p (⟨k.val, k.isLt⟩ : Fin 512) := by
  funext c; apply Fin.ext
  fin_cases c <;> rfl

/-- The stored column at `(p, u)`: the sum over the row of the squared coupling strengths. -/
theorem pay3_apply (v36 : FVec Ideal S256x1538 .f32) (v37 : Vec Ideal S1538 .f32) (v43 : Vec Ideal S1538x512 .bf16)
    (v46 : Vec Ideal S512 .f32) (p : Fin 256) (u : Fin 1) :
    k0_pay3 (F := Ideal) v36 v37 v43 v46 (ix2 p u)
      = ∑ i : Fin 512, k0_pay1 (F := Ideal) v36 v37 v43 v46 (ix2 p i) * k0_pay1 (F := Ideal) v36 v37 v43 v46 (ix2 p i) := by
  unfold k0_pay3
  refine (Cert.LibColumn.shapeCast_a_a1_apply _ shapeCasts_S256_S256x1 p u).trans ?_
  refine (Ideal.multiReduction_add_single _ 0x00000000#32 reduces_S256x512_S256 (.inl rfl) rfl (ix1 p)).trans
    (Finset.sum_congr rfl fun k _ => ?_)
  exact congrArg (fun j => k0_pay1 (F := Ideal) v36 v37 v43 v46 j * k0_pay1 (F := Ideal) v36 v37 v43 v46 j)
    (lift_row reduces_S256x512_S256 p k)

end Cert.Osc

end
-- ==== Proof.SpecArrays.lean ====
/-
  The two result arrays as whole-array functions of the argument arrays: the force array's row `b` is `forceAt` of
  row `b` of the phases (the first 512 columns of the 512 × 513 state array) and row `b` of the frequencies; the
  energy column's row `b` is that row's `energy`.
-/
import proofs.«104526_j37512244363645_2_alg».proof.Proof.Spec

noncomputable section

open scoped BigOperators

namespace Cert.Osc

open Idealize.ShloMosaic Idealize.ShloMosaic.ValueIdx

/-- Row `b` of the phases: the first 512 entries of row `b` of the 512 × 513 state array. -/
def phaseRow (y : (⟨2, ![512, 513]⟩ : Shape).Idx → EReal) (b : Fin 512) : Fin 512 → EReal :=
  fun l => y (ix2 b (⟨l.val, by have := l.isLt; omega⟩ : Fin 513))

/-- Row `b` of a matrix. -/
def matRow {R C : ℕ} (X : Mat R C) (b : Fin R) : Fin C → EReal := fun l => X (ix2 b l)

/-- The force array. -/
def forceArr (y : (⟨2, ![512, 513]⟩ : Shape).Idx → EReal) (fr A : Mat 512 512) (Wc Ws Wf : Mat 512 1538) (be : Row 1538)
    (W1 : Mat 1538 1538) (b1 : Row 1538) (W2 : Mat 1538 1538) (b2 : Row 1538) (W3 : Mat 1538 512) (b3 : Row 512) :
    Mat 512 512 := fun i =>
  forceAt (coupling (phaseRow y (i 0)) (matRow fr (i 0)) Wc Ws Wf be W1 b1 W2 b2 W3 b3) (pairSum (phaseRow y (i 0)) A)
    (matRow fr (i 0)) (i 1)

/-- The energy column. -/
def energyArr (y : (⟨2, ![512, 513]⟩ : Shape).Idx → EReal) (fr : Mat 512 512) (Wc Ws Wf : Mat 512 1538) (be : Row 1538)
    (W1 : Mat 1538 1538) (b1 : Row 1538) (W2 : Mat 1538 1538) (b2 : Row 1538) (W3 : Mat 1538 512) (b3 : Row 512) :
    Mat 512 1 := fun i =>
  energy (coupling (phaseRow y (i 0)) (matRow fr (i 0)) Wc Ws Wf be W1 b1 W2 b2 W3 b3)

end Cert.Osc

end
-- ==== Proof.KernelBlock.lean ====
/-
  What one grid point leaves in its two output blocks, as functions of the input blocks it was handed.

  The point's phase block is 256 rows of the 513-column state array, of which the body loads the first 512 columns;
  every other load is of a whole block. At `(p, i)` the force block is `forceAt` of row `p`'s coupling strengths and
  pairwise term; at `(p, 0)` the energy block is row `p`'s `energy`.
-/
import proofs.«104526_j37512244363645_2_alg».proof.Proof.Gen.KernelIdeal.Frame
import proofs.«104526_j37512244363645_2_alg».proof.Proof.KernelBody
import proofs.«104526_j37512244363645_2_alg».proof.Proof.SpecArrays

noncomputable section

open scoped BigOperators

namespace Cert.Osc

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- The load of the first 512 columns of a 256 × 513 block reads, at `(p, l)`, the block at `(p, l)`. -/
theorem ld_phase (x0 : Vec Ideal S256x513 .f32) (p : Fin 256) (l : Fin 512) :
    View.ld x0 r0_0 (ix2 p l) = x0 (ix2 p (⟨l.val, by have := l.isLt; omega⟩ : Fin 513)) := by
  show x0 (r0_0.idx (ix2 p l)) = _
  refine congrArg x0 (funext fun a => Fin.ext ?_)
  match a with
  | ⟨0, _⟩ => show 0 + 1 * p.val = p.val; omega
  | ⟨1, _⟩ => show 0 + 1 * l.val = l.val; omega

/-- Row `p` of the loaded phases of a block. -/
def blockPhaseRow (x0 : Vec Ideal S256x513 .f32) (p : Fin 256) : Fin 512 → EReal :=
  fun l => x0 (ix2 p (⟨l.val, by have := l.isLt; omega⟩ : Fin 513))

/-- The coupling strengths the body computes for row `p` of its blocks. -/
theorem coupling_apply (x0 : Vec Ideal S256x513 .f32) (x1 : Vec Ideal S256x512 .f32) (x3 x4 x5 : Vec Ideal S512x1538 .bf16)
    (x6 : Vec Ideal S1538 .f32) (x7 : Vec Ideal S1538x1538 .bf16) (x8 : Vec Ideal S1538 .f32) (x9 : Vec Ideal S1538x1538 .bf16)
    (x10 : Vec Ideal S1538 .f32) (x11 : Vec Ideal S1538x512 .bf16) (x12 : Vec Ideal S512 .f32) (p : Fin 256) (i : Fin 512) :
    k0_pay1 (F := Ideal) (k0_pay8 (View.ld x0 r0_0) x1 x3 x4 x5 x6 x7 x8 x9) x10 x11 x12 (ix2 p i)
      = coupling (blockPhaseRow x0 p) (fun l => x1 (ix2 p l)) x3 x4 x5 x6 x7 x8 x9 x10 x11 x12 i := by
  refine (pay1_apply _ x10 x11 x12 p i).trans ?_
  refine congrArg (· + x12 (ix1 i)) (Finset.sum_congr rfl fun l _ => congrArg (· * x11 (ix2 l i)) ?_)
  refine congrArg Ideal.tanh (congrArg (· + x10 (ix1 l)) ?_)
  refine (pay8_apply (View.ld x0 r0_0) x1 x3 x4 x5 x6 x7 x8 x9 p l).trans ?_
  have e : (fun k => View.ld x0 r0_0 (ix2 p k)) = blockPhaseRow x0 p := funext fun k => ld_phase x0 p k
  rw [e]

/-- The force block a point leaves, at `(p, i)`. -/
theorem out13_apply (x0 : Vec Ideal S256x513 .f32) (x1 : Vec Ideal S256x512 .f32) (x2 : Vec Ideal S512x512 .bf16)
    (x3 x4 x5 : Vec Ideal S512x1538 .bf16) (x6 : Vec Ideal S1538 .f32) (x7 : Vec Ideal S1538x1538 .bf16) (x8 : Vec Ideal S1538 .f32)
    (x9 : Vec Ideal S1538x1538 .bf16) (x10 : Vec Ideal S1538 .f32) (x11 : Vec Ideal S1538x512 .bf16) (x12 : Vec Ideal S512 .f32)
    (p : Fin 256) (i : Fin 512) :
    out0_13 (F := Ideal) x0 x1 x2 x3 x4 x5 x6 x7 x8 x9 x10 x11 x12 (ix2 p i)
      = forceAt (coupling (blockPhaseRow x0 p) (fun l => x1 (ix2 p l)) x3 x4 x5 x6 x7 x8 x9 x10 x11 x12)
          (pairSum (blockPhaseRow x0 p) x2) (fun l => x1 (ix2 p l)) i := by
  unfold out0_13
  rw [View.canon_unit_zero hz2]
  simp only [View.ld_unit_zero (S := S256x512) hz2, View.ld_unit_zero (S := S512x1538) hz2, View.ld_unit_zero (S := S1538) hz1,
    View.ld_unit_zero (S := S1538x1538) hz2, View.ld_unit_zero (S := S1538x512) hz2, View.ld_unit_zero (S := S512) hz1,
    View.ld_unit_zero (S := S512x512) hz2]
  refine (pay2_apply x1 _ _ _ _ _ x10 x11 x12 x2 p i).trans ?_
  rw [coupling_apply]
  unfold forceAt pairSum
  unfold k0_pay4 k0_pay5 k0_pay6 k0_pay7
  have e : ∀ k : Fin 512, View.ld x0 r0_0 (ix2 p k) = blockPhaseRow x0 p k := fun k => ld_phase x0 p k
  show Ideal.div ((Ideal.ofBits .f32 0x3F800000#32 * _) * (Ideal.cos (View.ld x0 r0_0 (ix2 p i)) * (∑ j : Fin 512, Ideal.sin (View.ld x0 r0_0 (ix2 p j)) * x2 (ix2 i j))
      - Ideal.sin (View.ld x0 r0_0 (ix2 p i)) * (∑ j : Fin 512, Ideal.cos (View.ld x0 r0_0 (ix2 p j)) * x2 (ix2 i j)))) _ + _ = _
  simp only [e]

/-- The energy block a point leaves, at `(p, u)`. -/
theorem out14_apply (x0 : Vec Ideal S256x513 .f32) (x1 : Vec Ideal S256x512 .f32) (x2 : Vec Ideal S512x512 .bf16)
    (x3 x4 x5 : Vec Ideal S512x1538 .bf16) (x6 : Vec Ideal S1538 .f32) (x7 : Vec Ideal S1538x1538 .bf16) (x8 : Vec Ideal S1538 .f32)
    (x9 : Vec Ideal S1538x1538 .bf16) (x10 : Vec Ideal S1538 .f32) (x11 : Vec Ideal S1538x512 .bf16) (x12 : Vec Ideal S512 .f32)
    (p : Fin 256) (u : Fin 1) :
    out0_14 (F := Ideal) x0 x1 x2 x3 x4 x5 x6 x7 x8 x9 x10 x11 x12 (ix2 p u)
      = energy (coupling (blockPhaseRow x0 p) (fun l => x1 (ix2 p l)) x3 x4 x5 x6 x7 x8 x9 x10 x11 x12) := by
  unfold out0_14
  rw [View.canon_unit_zero hz2]
  simp only [View.ld_unit_zero (S := S256x512) hz2, View.ld_unit_zero (S := S512x1538) hz2, View.ld_unit_zero (S := S1538) hz1,
    View.ld_unit_zero (S := S1538x1538) hz2, View.ld_unit_zero (S := S1538x512) hz2, View.ld_unit_zero (S := S512) hz1]
  refine (pay3_apply _ x10 x11 x12 p u).trans ?_
  unfold energy
  refine Finset.sum_congr rfl fun i _ => ?_
  rw [coupling_apply]

end Cert.Osc

end
-- ==== Proof.KernelValue.lean ====
/-
  From blocks to arrays: what the kernel's two result arrays hold after the run.

  The grid has two points; point `t` is handed rows `256 t … 256 t + 255` of the state array and of the frequency
  array, and the whole of every other array, and writes back rows `256 t … 256 t + 255` of the force array and of the
  energy column. Each written block is the matching block of one whole-array function of the arrays the region finds
  (`forceArr`, `energyArr`), and the two blocks cover each result array, so each result array ends holding that
  function. The concatenation of the two along the columns is the program's result.
-/
import proofs.«104526_j37512244363645_2_alg».proof.Proof.KernelBlock
import Idealize.ShloMosaic.Lib.Pipeline.Value
import Idealize.ShloMosaic.Lib.StableHlo.Run
import Idealize.ShloMosaic.Lib.Tactic

noncomputable section

open scoped BigOperators

namespace Cert.Osc

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The index maps, decided over the grid -/

theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 1) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 1) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 1) = 0 :=
  (by decide +kernel : ∀ t : Fin grid0.N, _)
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)

/-! ## The input blocks -/

/-- The global row of row `p` of point `t`'s blocks. -/
def rowAt (t : Fin cfg0.N) (p : Fin 256) : Fin 512 :=
  ⟨256 * t.val + p.val, by have h : t.val < 2 := lt_of_lt_of_eq t.isLt N_0; have := p.isLt; omega⟩

/-- Point `t`'s state block is rows `256 t …` of the state array. -/
theorem iblk0_apply (c : Dev nD) (t : Fin cfg0.N) (p : Fin 256) (l : Fin 513) :
    (iblk m c 0 t : Vec Ideal S256x513 .f32) (ix2 p l) = (V m c main_arg1 : S512x513.Idx → EReal) (ix2 (rowAt t p) l) := by
  unfold iblk
  rw [View.read_apply]
  show V m c main_arg1 _ = V m c main_arg1 _
  refine congrArg (V m c main_arg1) (funext fun a => Fin.ext ?_)
  match a with
  | ⟨0, _⟩ => show win0_0.index t (0 : Fin 2) * 256 + 1 * p.val = 256 * t.val + p.val; rw [(idx_0 t).1]; omega
  | ⟨1, _⟩ => show win0_0.index t (1 : Fin 2) * 513 + 1 * l.val = l.val; rw [(idx_0 t).2]; omega

/-- Point `t`'s frequency block is rows `256 t …` of the frequency array. -/
theorem iblk1_apply (c : Dev nD) (t : Fin cfg0.N) (p : Fin 256) (l : Fin 512) :
    (iblk m c 1 t : Vec Ideal S256x512 .f32) (ix2 p l) = (V m c main_arg2 : S512x512.Idx → EReal) (ix2 (rowAt t p) l) := by
  unfold iblk
  rw [View.read_apply]
  show V m c main_arg2 _ = V m c main_arg2 _
  refine congrArg (V m c main_arg2) (funext fun a => Fin.ext ?_)
  match a with
  | ⟨0, _⟩ => show win0_1.index t (0 : Fin 2) * 256 + 1 * p.val = 256 * t.val + p.val; rw [(idx_1 t).1]; omega
  | ⟨1, _⟩ => show win0_1.index t (1 : Fin 2) * 512 + 1 * l.val = l.val; rw [(idx_1 t).2]; omega

/-- Window 2's block at any point is its whole array. -/
theorem iblk2_eq (c : Dev nD) (t : Fin cfg0.N) : (iblk m c 2 t : Vec Ideal S512x512 .bf16) = V m c main_v13 := by
  funext y
  unfold iblk
  rw [View.read_apply]
  show V m c main_v13 _ = V m c main_v13 y
  refine congrArg (V m c main_v13) (funext fun a => Fin.ext ?_)
  match a with
  | ⟨0, _⟩ => show win0_2.index t (0 : Fin 2) * 512 + 1 * (y 0).val = (y 0).val; rw [(idx_2 t).1]; omega
  | ⟨1, _⟩ => show win0_2.index t (1 : Fin 2) * 512 + 1 * (y 1).val = (y 1).val; rw [(idx_2 t).2]; omega

/-- Window 3's block at any point is its whole array. -/
theorem iblk3_eq (c : Dev nD) (t : Fin cfg0.N) : (iblk m c 3 t : Vec Ideal S512x1538 .bf16) = V m c main_v1 := by
  funext y
  unfold iblk
  rw [View.read_apply]
  show V m c main_v1 _ = V m c main_v1 y
  refine congrArg (V m c main_v1) (funext fun a => Fin.ext ?_)
  match a with
  | ⟨0, _⟩ => show win0_3.index t (0 : Fin 2) * 512 + 1 * (y 0).val = (y 0).val; rw [(idx_3 t).1]; omega
  | ⟨1, _⟩ => show win0_3.index t (1 : Fin 2) * 1538 + 1 * (y 1).val = (y 1).val; rw [(idx_3 t).2]; omega

/-- Window 4's block at any point is its whole array. -/
theorem iblk4_eq (c : Dev nD) (t : Fin cfg0.N) : (iblk m c 4 t : Vec Ideal S512x1538 .bf16) = V m c main_v3 := by
  funext y
  unfold iblk
  rw [View.read_apply]
  show V m c main_v3 _ = V m c main_v3 y
  refine congrArg (V m c main_v3) (funext fun a => Fin.ext ?_)
  match a with
  | ⟨0, _⟩ => show win0_4.index t (0 : Fin 2) * 512 + 1 * (y 0).val = (y 0).val; rw [(idx_4 t).1]; omega
  | ⟨1, _⟩ => show win0_4.index t (1 : Fin 2) * 1538 + 1 * (y 1).val = (y 1).val; rw [(idx_4 t).2]; omega

/-- Window 5's block at any point is its whole array. -/
theorem iblk5_eq (c : Dev nD) (t : Fin cfg0.N) : (iblk m c 5 t : Vec Ideal S512x1538 .bf16) = V m c main_v7 := by
  funext y
  unfold iblk
  rw [View.read_apply]
  show V m c main_v7 _ = V m c main_v7 y
  refine congrArg (V m c main_v7) (funext fun a => Fin.ext ?_)
  match a with
  | ⟨0, _⟩ => show win0_5.index t (0 : Fin 2) * 512 + 1 * (y 0).val = (y 0).val; rw [(idx_5 t).1]; omega
  | ⟨1, _⟩ => show win0_5.index t (1 : Fin 2) * 1538 + 1 * (y 1).val = (y 1).val; rw [(idx_5 t).2]; omega

/-- Window 6's block at any point is its whole array. -/
theorem iblk6_eq (c : Dev nD) (t : Fin cfg0.N) : (iblk m c 6 t : Vec Ideal S1538 .f32) = V m c main_v12 := by
  funext y
  unfold iblk
  rw [View.read_apply]
  show V m c main_v12 _ = V m c main_v12 y
  refine congrArg (V m c main_v12) (funext fun a => Fin.ext ?_)
  match a with
  | ⟨0, _⟩ => show win0_6.index t (0 : Fin 1) * 1538 + 1 * (y 0).val = (y 0).val; rw [idx_6 t]; omega

/-- Window 7's block at any point is its whole array. -/
theorem iblk7_eq (c : Dev nD) (t : Fin cfg0.N) : (iblk m c 7 t : Vec Ideal S1538x1538 .bf16) = V m c main_v14 := by
  funext y
  unfold iblk
  rw [View.read_apply]
  show V m c main_v14 _ = V m c main_v14 y
  refine congrArg (V m c main_v14) (funext fun a => Fin.ext ?_)
  match a with
  | ⟨0, _⟩ => show win0_7.index t (0 : Fin 2) * 1538 + 1 * (y 0).val = (y 0).val; rw [(idx_7 t).1]; omega
  | ⟨1, _⟩ => show win0_7.index t (1 : Fin 2) * 1538 + 1 * (y 1).val = (y 1).val; rw [(idx_7 t).2]; omega

/-- Window 8's block at any point is its whole array. -/
theorem iblk8_eq (c : Dev nD) (t : Fin cfg0.N) : (iblk m c 8 t : Vec Ideal S1538 .f32) = V m c main_arg7 := by
  funext y
  unfold iblk
  rw [View.read_apply]
  show V m c main_arg7 _ = V m c main_arg7 y
  refine congrArg (V m c main_arg7) (funext fun a => Fin.ext ?_)
  match a with
  | ⟨0, _⟩ => show win0_8.index t (0 : Fin 1) * 1538 + 1 * (y 0).val = (y 0).val; rw [idx_8 t]; omega

/-- Window 9's block at any point is its whole array. -/
theorem iblk9_eq (c : Dev nD) (t : Fin cfg0.N) : (iblk m c 9 t : Vec Ideal S1538x1538 .bf16) = V m c main_v15 := by
  funext y
  unfold iblk
  rw [View.read_apply]
  show V m c main_v15 _ = V m c main_v15 y
  refine congrArg (V m c main_v15) (funext fun a => Fin.ext ?_)
  match a with
  | ⟨0, _⟩ => show win0_9.index t (0 : Fin 2) * 1538 + 1 * (y 0).val = (y 0).val; rw [(idx_9 t).1]; omega
  | ⟨1, _⟩ => show win0_9.index t (1 : Fin 2) * 1538 + 1 * (y 1).val = (y 1).val; rw [(idx_9 t).2]; omega

/-- Window 10's block at any point is its whole array. -/
theorem iblk10_eq (c : Dev nD) (t : Fin cfg0.N) : (iblk m c 10 t : Vec Ideal S1538 .f32) = V m c main_arg9 := by
  funext y
  unfold iblk
  rw [View.read_apply]
  show V m c main_arg9 _ = V m c main_arg9 y
  refine congrArg (V m c main_arg9) (funext fun a => Fin.ext ?_)
  match a with
  | ⟨0, _⟩ => show win0_10.index t (0 : Fin 1) * 1538 + 1 * (y 0).val = (y 0).val; rw [idx_10 t]; omega

/-- Window 11's block at any point is its whole array. -/
theorem iblk11_eq (c : Dev nD) (t : Fin cfg0.N) : (iblk m c 11 t : Vec Ideal S1538x512 .bf16) = V m c main_v16 := by
  funext y
  unfold iblk
  rw [View.read_apply]
  show V m c main_v16 _ = V m c main_v16 y
  refine congrArg (V m c main_v16) (funext fun a => Fin.ext ?_)
  match a with
  | ⟨0, _⟩ => show win0_11.index t (0 : Fin 2) * 1538 + 1 * (y 0).val = (y 0).val; rw [(idx_11 t).1]; omega
  | ⟨1, _⟩ => show win0_11.index t (1 : Fin 2) * 512 + 1 * (y 1).val = (y 1).val; rw [(idx_11 t).2]; omega

/-- Window 12's block at any point is its whole array. -/
theorem iblk12_eq (c : Dev nD) (t : Fin cfg0.N) : (iblk m c 12 t : Vec Ideal S512 .f32) = V m c main_arg11 := by
  funext y
  unfold iblk
  rw [View.read_apply]
  show V m c main_arg11 _ = V m c main_arg11 y
  refine congrArg (V m c main_arg11) (funext fun a => Fin.ext ?_)
  match a with
  | ⟨0, _⟩ => show win0_12.index t (0 : Fin 1) * 512 + 1 * (y 0).val = (y 0).val; rw [idx_12 t]; omega

/-! ## The two result arrays -/

/-- The force array of the arrays the region finds. -/
abbrev G13 (c : Dev nD) : S512x512.Idx → EReal :=
  forceArr (V m c main_arg1) (V m c main_arg2) (V m c main_v13) (V m c main_v1) (V m c main_v3) (V m c main_v7) (V m c main_v12)
    (V m c main_v14) (V m c main_arg7) (V m c main_v15) (V m c main_arg9) (V m c main_v16) (V m c main_arg11)

/-- The energy column of the arrays the region finds. -/
abbrev G14 (c : Dev nD) : S512x1.Idx → EReal :=
  energyArr (V m c main_arg1) (V m c main_arg2) (V m c main_v1) (V m c main_v3) (V m c main_v7) (V m c main_v12)
    (V m c main_v14) (V m c main_arg7) (V m c main_v15) (V m c main_arg9) (V m c main_v16) (V m c main_arg11)

/-- Row `p` of point `t`'s loaded phases is row `256 t + p` of the phases. -/
theorem phase_rows (c : Dev nD) (t : Fin cfg0.N) (p : Fin 256) :
    blockPhaseRow (iblk m c 0 t) p = phaseRow (V m c main_arg1) (rowAt t p) :=
  funext fun l => iblk0_apply m c t p _

/-- Row `p` of point `t`'s frequency block is row `256 t + p` of the frequencies. -/
theorem freq_rows (c : Dev nD) (t : Fin cfg0.N) (p : Fin 256) :
    (fun l => (iblk m c 1 t : Vec Ideal S256x512 .f32) (ix2 p l)) = matRow (V m c main_arg2) (rowAt t p) :=
  funext fun l => iblk1_apply m c t p l

/-- What point `t` writes back to the force array is block `t` of `G13`. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨p, i, rfl⟩ : ∃ (p : Fin 256) (i : Fin 512), y = ix2 p i := ⟨y 0, y 1, eq_ix2 y⟩
  have hemb : ((cfg0.win 13).blk t).view.emb (ix2 p i) = (ix2 (rowAt t p) i : S512x512.Idx) := by
    funext a; apply Fin.ext
    match a with
    | ⟨0, _⟩ => show win0_13.index t (0 : Fin 2) * 256 + 1 * p.val = 256 * t.val + p.val; rw [(idx_13 t).1]; omega
    | ⟨1, _⟩ => show win0_13.index t (1 : Fin 2) * 512 + 1 * i.val = i.val; rw [(idx_13 t).2]; omega
  show out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 p i)
    = G13 m c (((cfg0.win 13).blk t).view.emb (ix2 p i))
  rw [hemb]
  refine (out13_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) p i).trans ?_
  rw [phase_rows, freq_rows, iblk2_eq, iblk3_eq, iblk4_eq, iblk5_eq, iblk6_eq, iblk7_eq, iblk8_eq, iblk9_eq, iblk10_eq,
    iblk11_eq, iblk12_eq]
  rfl

/-- What point `t` writes back to the energy column is block `t` of `G14`. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  funext y
  obtain ⟨p, u, rfl⟩ : ∃ (p : Fin 256) (u : Fin 1), y = ix2 p u := ⟨y 0, y 1, eq_ix2 y⟩
  have hemb : ((cfg0.win 14).blk t).view.emb (ix2 p u) = (ix2 (rowAt t p) u : S512x1.Idx) := by
    funext a; apply Fin.ext
    match a with
    | ⟨0, _⟩ => show win0_14.index t (0 : Fin 2) * 256 + 1 * p.val = 256 * t.val + p.val; rw [(idx_14 t).1]; omega
    | ⟨1, _⟩ => show win0_14.index t (1 : Fin 2) * 1 + 1 * u.val = u.val; rw [(idx_14 t).2]; omega
  show out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 p u)
    = G14 m c (((cfg0.win 14).blk t).view.emb (ix2 p u))
  rw [hemb]
  refine (out14_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) p u).trans ?_
  rw [phase_rows, freq_rows, iblk3_eq, iblk4_eq, iblk5_eq, iblk6_eq, iblk7_eq, iblk8_eq, iblk9_eq, iblk10_eq,
    iblk11_eq, iblk12_eq]
  rfl

/-! ## The blocks cover the arrays -/

/-- An index of the force array is in point `t`'s block iff each coordinate is in the block's range on its axis. -/
theorem mem_blk13 (t : Fin cfg0.N) (i : S512x512.Idx) :
    i ∈ ((cfg0.win 13).blk t).view.set ↔ ∀ a : Fin 2, win0_13.index t a * S256x512.size a ≤ (i a).val
      ∧ (i a).val < win0_13.index t a * S256x512.size a + S256x512.size a := by
  show i ∈ ((View.whole main_v17_0).slice (win0_13.rect t)).set ↔ _
  rw [View.set_slice_whole, Rect.mem_set_unit]
  exact Iff.rfl

/-- The same for the energy column. -/
theorem mem_blk14 (t : Fin cfg0.N) (i : S512x1.Idx) :
    i ∈ ((cfg0.win 14).blk t).view.set ↔ ∀ a : Fin 2, win0_14.index t a * S256x1.size a ≤ (i a).val
      ∧ (i a).val < win0_14.index t a * S256x1.size a + S256x1.size a := by
  show i ∈ ((View.whole main_v17_1).slice (win0_14.rect t)).set ↔ _
  rw [View.set_slice_whole, Rect.mem_set_unit]
  exact Iff.rfl

/-- The point that holds row `r`: `r / 256`. -/
def pointOf (r : Fin 512) : Fin cfg0.N := ⟨r.val / 256, by rw [show cfg0.N = 2 from N_0]; have := r.isLt; omega⟩

/-- Every index of the force array is in the block of the point that holds its row. -/
theorem cover13 (i : S512x512.Idx) :
    ∃ t : Fin cfg0.N, (cfg0.win 13).flush t = true ∧ i ∈ ((cfg0.win 13).blk t).view.set := by
  have hi0 : (i 0).val < 512 := (i 0).isLt
  have hi1 : (i 1).val < 512 := (i 1).isLt
  refine ⟨pointOf (i 0), flush0_13 _, ?_⟩
  rw [mem_blk13]
  obtain ⟨e0, e1⟩ := idx_13 (pointOf (i 0))
  have ev : (pointOf (i 0)).val = (i 0).val / 256 := rfl
  intro a
  match a with
  | ⟨0, _⟩ =>
    show win0_13.index (pointOf (i 0)) (0 : Fin 2) * 256 ≤ (i 0).val
      ∧ (i 0).val < win0_13.index (pointOf (i 0)) (0 : Fin 2) * 256 + 256
    rw [e0, ev]; omega
  | ⟨1, _⟩ =>
    show win0_13.index (pointOf (i 0)) (1 : Fin 2) * 512 ≤ (i 1).val
      ∧ (i 1).val < win0_13.index (pointOf (i 0)) (1 : Fin 2) * 512 + 512
    rw [e1]; omega

/-- Every index of the energy column is in the block of the point that holds its row. -/
theorem cover14 (i : S512x1.Idx) :
    ∃ t : Fin cfg0.N, (cfg0.win 14).flush t = true ∧ i ∈ ((cfg0.win 14).blk t).view.set := by
  have hi0 : (i 0).val < 512 := (i 0).isLt
  have hi1 : (i 1).val < 1 := (i 1).isLt
  refine ⟨pointOf (i 0), flush0_14 _, ?_⟩
  rw [mem_blk14]
  obtain ⟨e0, e1⟩ := idx_14 (pointOf (i 0))
  have ev : (pointOf (i 0)).val = (i 0).val / 256 := rfl
  intro a
  match a with
  | ⟨0, _⟩ =>
    show win0_14.index (pointOf (i 0)) (0 : Fin 2) * 256 ≤ (i 0).val
      ∧ (i 0).val < win0_14.index (pointOf (i 0)) (0 : Fin 2) * 256 + 256
    rw [e0, ev]; omega
  | ⟨1, _⟩ =>
    show win0_14.index (pointOf (i 0)) (1 : Fin 2) * 1 ≤ (i 1).val
      ∧ (i 1).val < win0_14.index (pointOf (i 0)) (1 : Fin 2) * 1 + 1
    rw [e1]; omega

/-- The force array after the run. -/
theorem final13 (c : Dev nD) : (dats m 0 c).arrAt 13 cfg0.N = G13 m c :=
  (dats m 0 c).arrAt_eq_of_cover 13 (G13 m c) (fun t _ => flushed13_eq m c t) cover13

/-- The energy column after the run. -/
theorem final14 (c : Dev nD) : (dats m 0 c).arrAt 14 cfg0.N = G14 m c :=
  (dats m 0 c).arrAt_eq_of_cover 14 (G14 m c) (fun t _ => flushed14_eq m c t) cover14

/-! ## The program's result: the two arrays side by side -/

/-- The result array after the run: the force array and the energy column concatenated along the columns. -/
theorem tail_eq (c : Dev nD) :
    Pipeline.afterTail₀ cfgs (dats m) 0 (V0 m) [hostOps1] c main_v18
      = concatenate S512x513 1 [⟨S512x512, G13 m c⟩, ⟨S512x1, G14 m c⟩] concatenates_S512x512_S512x1_S512x513_d1 := by
  unfold Pipeline.afterTail₀
  show StableHlo.after hostOps1 _ (Proc.devRef .tc main_v18) = _
  after_results
  have e13 := (Pipeline.withArrays_arr spec0 winFacts0.arr_inj c (V0 m c) (fun w => (dats m 0 c).arrAt w cfg0.N) 13).trans
    (final13 m c)
  have e14 := (Pipeline.withArrays_arr spec0 winFacts0.arr_inj c (V0 m c) (fun w => (dats m 0 c).arrAt w cfg0.N) 14).trans
    (final14 m c)
  exact congrArg₂ (fun a b => concatenate S512x513 1 [⟨S512x512, a⟩, ⟨S512x1, b⟩] concatenates_S512x512_S512x1_S512x513_d1)
    e13 e14

/-- The program's result after the run. -/
abbrev result (c : Dev nD) : S512x513.Idx → EReal :=
  concatenate S512x513 1 [⟨S512x512, G13 m c⟩, ⟨S512x1, G14 m c⟩] concatenates_S512x512_S512x1_S512x513_d1

/-- The run, read: every weakly fair execution ends with the result array at `result` and the argument arrays unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v18 (Pipeline.mem_restRefs_of main_v18 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c)),
      ((h c).1 10).trans (((dats m 0 c).arrAt_in 10 rfl _).trans ((A_eq m c 10).trans (V_main_arg9 m c))),
      (((h c).2 main_arg10 (Pipeline.mem_restRefs_of main_arg10 (by decide) (by decide))).trans (W_main_arg10 m (dats m) c)),
      ((h c).1 12).trans (((dats m 0 c).arrAt_in 12 rfl _).trans ((A_eq m c 12).trans (V_main_arg11 m c)))⟩) (run_main m ρ)

end Cert.Osc

end
-- ==== Proof.LibScalarCast.lean ====
/-
  A one-element vector viewed as a scalar: a `[1]` array cast to the rank-0 shape reads, at the one rank-0 index,
  the array's only entry.
-/
import Idealize.ShloMosaic.Lib.ValueIdx
import Idealize.ShloMosaic.Lib.Pipeline.Value

namespace Cert.LibScalarCast

open Idealize.ShloMosaic Idealize.ShloMosaic.ValueIdx

/-- A `[1]` array cast to a scalar reads the array at its only index. -/
theorem shapeCast_one_scalar_apply {α : Type} (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) :=
  shapeCast_apply x h j (ix1 (0 : Fin 1)) (by
    have h1 := ((⟨1, ![1]⟩ : Shape).rowMajor (ix1 (0 : Fin 1))).isLt
    have h2 := ((⟨0, ![]⟩ : Shape).rowMajor j).isLt
    have e1 : (⟨1, ![1]⟩ : Shape).numel = 1 := by decide
    have e2 : (⟨0, ![]⟩ : Shape).numel = 1 := by decide
    have h1' : ((⟨1, ![1]⟩ : Shape).rowMajor (ix1 (0 : Fin 1))).val < 1 := lt_of_lt_of_eq h1 e1
    have h2' : ((⟨0, ![]⟩ : Shape).rowMajor j).val < 1 := lt_of_lt_of_eq h2 e2
    omega)

end Cert.LibScalarCast
-- ==== Proof.KernelInputs.lean ====
/-
  The arrays the kernel's region finds, in terms of the program's arguments.

  Before the region the host cuts the first weight matrix (1537 rows) into rows 0–511, 512–1023, row 1024 and rows
  1025–1536, changes the float format of the weight matrices and of the coupling matrix (the identity at the exact
  reading), and folds the time entry into the first bias: bias + (t − 1) · (row 1024).
-/
import proofs.«104526_j37512244363645_2_alg».proof.Proof.Gen.KernelIdeal.Frame
import proofs.«104526_j37512244363645_2_alg».proof.Proof.LibScalarCast
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic

noncomputable section

namespace Cert.Osc

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The coupling matrix the region finds is the argument. -/
theorem V_v13 (c : Dev nD) : (V m c main_v13 : S512x512.Idx → EReal) = m ((c : Thread nD τ).loc main_arg3) := by
  show StableHlo.after hostOps0 (fun b => m (c, b)) (Proc.devRef .tc main_v13) = _
  after_results
  rfl

/-- The second weight matrix the region finds is the argument. -/
theorem V_v14 (c : Dev nD) : (V m c main_v14 : S1538x1538.Idx → EReal) = m ((c : Thread nD τ).loc main_arg6) := by
  show StableHlo.after hostOps0 (fun b => m (c, b)) (Proc.devRef .tc main_v14) = _
  after_results
  rfl

/-- The third weight matrix the region finds is the argument. -/
theorem V_v15 (c : Dev nD) : (V m c main_v15 : S1538x1538.Idx → EReal) = m ((c : Thread nD τ).loc main_arg8) := by
  show StableHlo.after hostOps0 (fun b => m (c, b)) (Proc.devRef .tc main_v15) = _
  after_results
  rfl

/-- The last weight matrix the region finds is the argument. -/
theorem V_v16 (c : Dev nD) : (V m c main_v16 : S1538x512.Idx → EReal) = m ((c : Thread nD τ).loc main_arg10) := by
  show StableHlo.after hostOps0 (fun b => m (c, b)) (Proc.devRef .tc main_v16) = _
  after_results
  rfl

/-- Rows 0–511 of the first weight matrix. -/
theorem V_v1_apply (c : Dev nD) (l : Fin 512) (j : Fin 1538) :
    (V m c main_v1 : S512x1538.Idx → EReal) (ix2 l j)
      = (m ((c : Thread nD τ).loc main_arg4) : S1537x1538.Idx → EReal) (ix2 (⟨l.val, by have := l.isLt; omega⟩ : Fin 1537) j) := by
  have e : (V m c main_v1 : S512x1538.Idx → EReal)
      = extractStridedSlice S512x1538 ![0, 0] (m ((c : Thread nD τ).loc main_arg4)) slices_S1537x1538_S512x1538_0_0 := by
    show StableHlo.after hostOps0 (fun b => m (c, b)) (Proc.devRef .tc main_v1) = _
    after_results
    rfl
  rw [e]
  exact extractStridedSlice_apply _ _ _ (ix2 l j) _ (fun a => match a with
    | ⟨0, _⟩ => by show l.val = 0 + l.val; omega
    | ⟨1, _⟩ => by show j.val = 0 + j.val; omega)

/-- Rows 512–1023 of the first weight matrix. -/
theorem V_v3_apply (c : Dev nD) (l : Fin 512) (j : Fin 1538) :
    (V m c main_v3 : S512x1538.Idx → EReal) (ix2 l j)
      = (m ((c : Thread nD τ).loc main_arg4) : S1537x1538.Idx → EReal) (ix2 (⟨512 + l.val, by have := l.isLt; omega⟩ : Fin 1537) j) := by
  have e : (V m c main_v3 : S512x1538.Idx → EReal)
      = extractStridedSlice S512x1538 ![512, 0] (m ((c : Thread nD τ).loc main_arg4)) slices_S1537x1538_S512x1538_512_0 := by
    show StableHlo.after hostOps0 (fun b => m (c, b)) (Proc.devRef .tc main_v3) = _
    after_results
    rfl
  rw [e]
  exact extractStridedSlice_apply _ _ _ (ix2 l j) _ (fun a => match a with
    | ⟨0, _⟩ => by show 512 + l.val = 512 + l.val; rfl
    | ⟨1, _⟩ => by show j.val = 0 + j.val; omega)

/-- Rows 1025–1536 of the first weight matrix. -/
theorem V_v7_apply (c : Dev nD) (l : Fin 512) (j : Fin 1538) :
    (V m c main_v7 : S512x1538.Idx → EReal) (ix2 l j)
      = (m ((c : Thread nD τ).loc main_arg4) : S1537x1538.Idx → EReal) (ix2 (⟨1025 + l.val, by have := l.isLt; omega⟩ : Fin 1537) j) := by
  have e : (V m c main_v7 : S512x1538.Idx → EReal)
      = extractStridedSlice S512x1538 ![1025, 0] (m ((c : Thread nD τ).loc main_arg4)) slices_S1537x1538_S512x1538_1025_0 := by
    show StableHlo.after hostOps0 (fun b => m (c, b)) (Proc.devRef .tc main_v7) = _
    after_results
    rfl
  rw [e]
  exact extractStridedSlice_apply _ _ _ (ix2 l j) _ (fun a => match a with
    | ⟨0, _⟩ => by show 1025 + l.val = 1025 + l.val; rfl
    | ⟨1, _⟩ => by show j.val = 0 + j.val; omega)

/-- The time argument, the first weight matrix and the first bias as arrays of extended reals. -/
abbrev argTime (c : Dev nD) : S1.Idx → EReal := m ((c : Thread nD τ).loc main_arg0)
abbrev argW0 (c : Dev nD) : S1537x1538.Idx → EReal := m ((c : Thread nD τ).loc main_arg4)
abbrev argB0 (c : Dev nD) : S1538.Idx → EReal := m ((c : Thread nD τ).loc main_arg5)
/-- The first bias as the region finds it. -/
abbrev regB0 (c : Dev nD) : S1538.Idx → EReal := V m c main_v12

/-- The first bias with the time entry folded in: bias_j + (t − 1) · W0[1024, j]. -/
theorem V_v12_apply (c : Dev nD) (j : Fin 1538) :
    regB0 m c (ix1 j)
      = argB0 m c (ix1 j)
        + (argTime m c (ix1 (0 : Fin 1)) - Ideal.ofBits .f32 0x3F800000#32)
          * argW0 m c (ix2 (⟨1024, by omega⟩ : Fin 1537) j) := by
  have e : regB0 m c
      = addf (F := Ideal) (φ := .f32) (argB0 m c)
          (mulf (F := Ideal) (φ := .f32) (broadcastInDim S1538 ![] bcast_S_S1538
              (subf (F := Ideal) (φ := .f32) (shapeCast S_ (argTime m c) shapeCasts_S1_S_)
                (constant (F := Ideal) S_ .f32 0x3F800000#32)))
            (shapeCast S1538 (extractStridedSlice S1x1538 ![1024, 0] (argW0 m c)
              slices_S1537x1538_S1x1538_1024_0) shapeCasts_S1x1538_S1538)) := by
    show StableHlo.after hostOps0 (fun b => m (c, b)) (Proc.devRef .tc main_v12) = _
    after_results
    rfl
  rw [e]
  refine congrArg₂ (fun a b => argB0 m c (ix1 j) + a * b) ?_ ?_
  · exact (broadcastInDim_scalar_apply bcast_S_S1538 _ (ix1 j)).trans
      (congrArg (· - Ideal.ofBits .f32 0x3F800000#32)
        (Cert.LibScalarCast.shapeCast_one_scalar_apply (argTime m c) shapeCasts_S1_S_ ix0))
  · exact (shapeCast_1a_a_apply _ shapeCasts_S1x1538_S1538 j).trans
      (extractStridedSlice_apply _ _ _ (ix2 (0 : Fin 1) j) _ (fun a => match a with
        | ⟨0, _⟩ => by show 1024 = 1024 + 0; rfl
        | ⟨1, _⟩ => by show j.val = 0 + j.val; omega))

end Cert.Osc

end
-- ==== Proof.PhaseAlgebra.lean ====
/-
  Two facts about finite sums of extended reals.

  For real phases and real weights, Σ_j sin(y_j − y_i) · a_j = cos y_i · Σ_j sin y_j · a_j − sin y_i · Σ_j cos y_j · a_j
  (the angle-difference identity under the sum, then distributivity: both need the entries to be real). A sum over 1537
  indices is the sum of its four consecutive blocks of 512, 512, 1 and 512 indices, so a 1537-long contraction plus a
  bias is three 512-long contractions plus the bias with the single remaining product folded in (associativity and
  commutativity of + only).
-/
import Idealize.ShloMosaic.PureOps.Ideal
import Idealize.ShloMosaic.PureOps.Ideal.Laws

noncomputable section

open scoped BigOperators

namespace Cert.Osc

open Idealize.ShloMosaic

/-- The inclusion of the reals into the extended reals commutes with finite sums: it is additive
    (`EReal.coe_add`) and sends `0` to `0`, so induction on the length of the family does it. -/
theorem coe_sum {n : ℕ} (f : Fin n → ℝ) :
    (∑ j : Fin n, ((f j : ℝ) : EReal)) = ((∑ j : Fin n, f j : ℝ) : EReal) := by
  induction n with
  | zero => simp
  | succ n ih =>
    rw [Fin.sum_univ_castSucc, Fin.sum_univ_castSucc, EReal.coe_add, ih]

/-- Pairwise sine sum. For REAL phases `y_j`, `y_i` and REAL weights `a_j`,
    `Σ_j sin (y_j - y_i) · a_j = cos y_i · Σ_j sin y_j · a_j - sin y_i · Σ_j cos y_j · a_j`,
    by the subtraction formula `sin (a - b) = sin a cos b - cos a sin b` under the sum and
    distributivity. Both steps fail at the infinities of the extended reals, hence the real
    witnesses for every entry. The leading `z` is a zero accumulator. -/
theorem pairwise_sine_sum {n : ℕ} (Y A : Fin n → EReal) (Yi z : EReal) (hz : z = 0)
    (hY : ∀ j, ∃ r : ℝ, Y j = (r : EReal)) (hA : ∀ j, ∃ r : ℝ, A j = (r : EReal))
    (hYi : ∃ r : ℝ, Yi = (r : EReal)) :
    z + ∑ j : Fin n, Ideal.sin (Y j - Yi) * A j
      = Ideal.cos Yi * (∑ j : Fin n, Ideal.sin (Y j) * A j)
        - Ideal.sin Yi * (∑ j : Fin n, Ideal.cos (Y j) * A j) := by
  choose y hy using hY
  choose a ha using hA
  obtain ⟨yi, rfl⟩ := hYi
  subst hz
  simp only [hy, ha, ← EReal.coe_sub, Ideal.sin_coe, Ideal.cos_coe, ← EReal.coe_mul, coe_sum,
    zero_add]
  rw [EReal.coe_eq_coe_iff]
  simp only [Real.sin_sub, Finset.mul_sum, ← Finset.sum_sub_distrib]
  refine Finset.sum_congr rfl (fun j _ => ?_)
  ring

/-- A sum over `1537 = 512 + 512 + 1 + 512` indices, cut into its four consecutive blocks. -/
theorem sum_four_blocks (g : Fin 1537 → EReal) :
    ∑ k : Fin 1537, g k
      = (∑ l : Fin 512, g ⟨l.val, by have := l.isLt; omega⟩)
        + ((∑ l : Fin 512, g ⟨512 + l.val, by have := l.isLt; omega⟩)
          + (g ⟨1024, by omega⟩
            + ∑ l : Fin 512, g ⟨1025 + l.val, by have := l.isLt; omega⟩)) := by
  -- the last 513 indices: one entry, then 512
  have h3 : (∑ j : Fin 513, g ⟨1024 + j.val, by have := j.isLt; omega⟩)
      = g ⟨1024, by omega⟩ + ∑ l : Fin 512, g ⟨1025 + l.val, by have := l.isLt; omega⟩ := by
    rw [Fin.sum_univ_add (a := 1) (b := 512)
      (fun j : Fin 513 => g ⟨1024 + j.val, by have := j.isLt; omega⟩), Fin.sum_univ_one]
    refine congrArg₂ (fun x y : EReal => x + y) (congrArg g (Fin.ext ?_))
      (Finset.sum_congr rfl (fun l _ => congrArg g (Fin.ext ?_)))
    · simp
    · simp only [Fin.val_natAdd]; omega
  -- the last 1025 indices: 512, then 513
  have h2 : (∑ j : Fin 1025, g ⟨512 + j.val, by have := j.isLt; omega⟩)
      = (∑ l : Fin 512, g ⟨512 + l.val, by have := l.isLt; omega⟩)
        + ∑ j : Fin 513, g ⟨1024 + j.val, by have := j.isLt; omega⟩ := by
    rw [Fin.sum_univ_add (a := 512) (b := 513)
      (fun j : Fin 1025 => g ⟨512 + j.val, by have := j.isLt; omega⟩)]
    refine congrArg₂ (fun x y : EReal => x + y)
      (Finset.sum_congr rfl (fun l _ => congrArg g (Fin.ext ?_)))
      (Finset.sum_congr rfl (fun l _ => congrArg g (Fin.ext ?_)))
    · simp only [Fin.val_castAdd]
    · simp only [Fin.val_natAdd]; omega
  -- all 1537 indices: 512, then 1025
  have h1 : (∑ k : Fin 1537, g k)
      = (∑ l : Fin 512, g ⟨l.val, by have := l.isLt; omega⟩)
        + ∑ j : Fin 1025, g ⟨512 + j.val, by have := j.isLt; omega⟩ := by
    rw [Fin.sum_univ_add (a := 512) (b := 1025) g]
    refine congrArg₂ (fun x y : EReal => x + y)
      (Finset.sum_congr rfl (fun l _ => congrArg g (Fin.ext ?_)))
      (Finset.sum_congr rfl (fun l _ => congrArg g (Fin.ext ?_)))
    · simp only [Fin.val_castAdd]
    · simp only [Fin.val_natAdd]
  rw [h1, h2, h3]

/-- First-layer split. Contracting the concatenated row
    `[c (512) | s (512) | te (1) | f (512)]` of length `1537` against the matching rows of a weight
    column and then adding the bias `b` equals the three `512`-long contractions against the three
    row slices, plus the bias with the single product `te · wt` folded into it. Only associativity
    and commutativity of `+` on the extended reals are used, so no entry needs to be finite. -/
theorem first_layer_split (mlp W : Fin 1537 → EReal) (c s f Wc Ws Wf : Fin 512 → EReal)
    (te wt b : EReal)
    (hc : ∀ l : Fin 512, mlp ⟨l.val, by have := l.isLt; omega⟩ = c l)
    (hs : ∀ l : Fin 512, mlp ⟨512 + l.val, by have := l.isLt; omega⟩ = s l)
    (ht : mlp ⟨1024, by omega⟩ = te)
    (hf : ∀ l : Fin 512, mlp ⟨1025 + l.val, by have := l.isLt; omega⟩ = f l)
    (hWc : ∀ l : Fin 512, W ⟨l.val, by have := l.isLt; omega⟩ = Wc l)
    (hWs : ∀ l : Fin 512, W ⟨512 + l.val, by have := l.isLt; omega⟩ = Ws l)
    (hwt : W ⟨1024, by omega⟩ = wt)
    (hWf : ∀ l : Fin 512, W ⟨1025 + l.val, by have := l.isLt; omega⟩ = Wf l) :
    (∑ k : Fin 1537, mlp k * W k) + b
      = (((∑ l : Fin 512, c l * Wc l) + (∑ l : Fin 512, s l * Ws l))
          + (∑ l : Fin 512, f l * Wf l)) + (b + te * wt) := by
  rw [sum_four_blocks (fun k => mlp k * W k)]
  simp only [hc, hs, ht, hf, hWc, hWs, hwt, hWf]
  ac_rfl

end Cert.Osc
-- ==== Proof.RefValue.lean ====
/-
  The reference program's result, read row by row.

  The reference concatenates (cos y, sin y, the time entry, f) into one 1537-long row per batch row and contracts it with
  the whole first weight matrix; regrouping that sum gives the split first layer. Its pairwise term is
  Σ_j sin(y_j − y_i) · A[i,j], which for real phases and real couplings is the product form. The remaining layers, the
  force and the energy are the same expressions as the kernel's.
-/
import proofs.«104526_j37512244363645_2_alg».proof.Proof.Gen.ReferenceIdeal.Read
import proofs.«104526_j37512244363645_2_alg».proof.Proof.SpecArrays
import proofs.«104526_j37512244363645_2_alg».proof.Proof.PhaseAlgebra
import proofs.«104526_j37512244363645_2_alg».proof.Proof.LibScalarCast
import Idealize.ShloMosaic.Lib.Pipeline.Value
import Idealize.ShloMosaic.Lib.ValueIdx
import Idealize.ShloMosaic.PureOps.Ideal.Laws

noncomputable section

open scoped BigOperators

namespace Cert.Osc

open Idealize.ShloMosaic Idealize.ShloMosaic.ValueIdx Cert.ReferenceIdeal Cert.ReferenceIdeal.Gen Cert.ReferenceIdeal.Read

variable (x0 : FVec Ideal S1 .f32) (x1 : FVec Ideal S512x513 .f32) (x2 x3 : FVec Ideal S512x512 .f32)
  (x4 : FVec Ideal S1537x1538 .f32) (x5 : FVec Ideal S1538 .f32) (x6 : FVec Ideal S1538x1538 .f32) (x7 : FVec Ideal S1538 .f32)
  (x8 : FVec Ideal S1538x1538 .f32) (x9 : FVec Ideal S1538 .f32) (x10 : FVec Ideal S1538x512 .f32) (x11 : FVec Ideal S512 .f32)

/-! ## The pairwise term -/

/-- For real phases and real couplings the reference's Σ_j sin(y_j − y_i) · A[i,j] is the product form. -/
theorem ref_pair (hy : ∀ i, ∃ r : ℝ, x1 i = (r : EReal)) (hA : ∀ i, ∃ r : ℝ, x3 i = (r : EReal)) (b i : Fin 512) :
    val_main_v35 (F := Ideal) x1 x3 (ix2 b i) = pairSum (phaseRow x1 b) x3 i := by
  rw [val_main_v35_apply]
  have hs : ∀ k : Fin 512, val_main_v34 (F := Ideal) x1 x3 (idx_main_v35 (ix2 b i) k)
      = Ideal.sin (phaseRow x1 b k - phaseRow x1 b i) * x3 (ix2 i k) := by
    intro k
    rw [val_main_v34_apply, val_main_v31_apply, val_main_v30_apply, val_main_v28_apply, val_main_v26_apply, val_main_v0_apply,
      val_main_v29_apply, val_main_v27_apply, val_main_v0_apply, val_main_v33_apply, val_main_v32_apply]
    have eA : idx_main_v0 (idx_main_v26 (idx_main_v28 (idx_main_v35 (ix2 b i) k)))
        = ix2 b (⟨k.val, by have := k.isLt; omega⟩ : Fin 513) :=
      funext fun a => by match a with | ⟨0, _⟩ => rfl | ⟨1, _⟩ => rfl
    have eB : idx_main_v0 (idx_main_v27 (idx_main_v29 (idx_main_v35 (ix2 b i) k)))
        = ix2 b (⟨i.val, by have := i.isLt; omega⟩ : Fin 513) :=
      funext fun a => by match a with | ⟨0, _⟩ => rfl | ⟨1, _⟩ => rfl
    have eC : idx_main_v32 (idx_main_v33 (idx_main_v35 (ix2 b i) k)) = ix2 i k :=
      funext fun a => by match a with | ⟨0, _⟩ => rfl | ⟨1, _⟩ => rfl
    rw [eA, eB, eC]
    rfl
  simp only [hs]
  exact pairwise_sine_sum (fun k => phaseRow x1 b k) (fun k => x3 (ix2 i k)) (phaseRow x1 b i) _ Ideal.ofBits_zero_f32
    (fun k => hy _) (fun k => hA _) (hy _)

/-! ## The concatenated row -/

/-- The time entry: t − 1, with the literal as both programs spell it. -/
def timeEntry (x0 : (⟨1, ![1]⟩ : Shape).Idx → EReal) : EReal := x0 (ix1 (0 : Fin 1)) - Ideal.ofBits .f32 0x3F800000#32

/-- The four pieces of the concatenated row. -/
abbrev rowPieces : List ((s : Shape) × (s.Idx → EReal)) :=
  [⟨S512x512, val_main_v4 (F := Ideal) x1⟩, ⟨S512x512, val_main_v5 (F := Ideal) x1⟩, ⟨S512x1, val_main_v3 (F := Ideal) x0⟩,
    ⟨S512x512, x2⟩]

/-- Entries 0–511 of the concatenated row are the cosines of the phases. -/
theorem mlp_cos (b l : Fin 512) :
    val_main_v6 (F := Ideal) x0 x1 x2 (ix2 b (⟨l.val, by have := l.isLt; omega⟩ : Fin 1537)) = Ideal.cos (phaseRow x1 b l) := by
  unfold val_main_v6
  refine (concatenate_apply_piece (t := S512x1537) (1 : Fin 2) (rowPieces x0 x1 x2)
    concatenates_S512x512_S512x512_S512x1_S512x512_S512x1537_d1 _ 0 (by show (0 : ℕ) < 4; omega) S512x512 (val_main_v4 (F := Ideal) x1) rfl rfl 0 rfl
    (ix2 b l) (fun a ha => ?_) ?_).trans ?_
  · match a, ha with
    | ⟨0, _⟩, _ => rfl
    | ⟨1, _⟩, ha => exact absurd rfl ha
  · show 0 + l.val = l.val; omega
  · rw [val_main_v4_apply, val_main_v0_apply]
    have e : idx_main_v0 (ix2 b l) = ix2 b (⟨l.val, by have := l.isLt; omega⟩ : Fin 513) :=
      funext fun a => by match a with | ⟨0, _⟩ => rfl | ⟨1, _⟩ => rfl
    rw [e]
    rfl

/-- Entries 512–1023 are the sines of the phases. -/
theorem mlp_sin (b l : Fin 512) :
    val_main_v6 (F := Ideal) x0 x1 x2 (ix2 b (⟨512 + l.val, by have := l.isLt; omega⟩ : Fin 1537)) = Ideal.sin (phaseRow x1 b l) := by
  unfold val_main_v6
  refine (concatenate_apply_piece (t := S512x1537) (1 : Fin 2) (rowPieces x0 x1 x2)
    concatenates_S512x512_S512x512_S512x1_S512x512_S512x1537_d1 _ 1 (by show (1 : ℕ) < 4; omega) S512x512 (val_main_v5 (F := Ideal) x1) rfl rfl 512 rfl
    (ix2 b l) (fun a ha => ?_) ?_).trans ?_
  · match a, ha with
    | ⟨0, _⟩, _ => rfl
    | ⟨1, _⟩, ha => exact absurd rfl ha
  · show 512 + l.val = 512 + l.val; rfl
  · rw [val_main_v5_apply, val_main_v0_apply]
    have e : idx_main_v0 (ix2 b l) = ix2 b (⟨l.val, by have := l.isLt; omega⟩ : Fin 513) :=
      funext fun a => by match a with | ⟨0, _⟩ => rfl | ⟨1, _⟩ => rfl
    rw [e]
    rfl

/-- Entry 1024 is the time entry. -/
theorem mlp_time (b : Fin 512) :
    val_main_v6 (F := Ideal) x0 x1 x2 (ix2 b (⟨1024, by omega⟩ : Fin 1537)) = timeEntry x0 := by
  unfold val_main_v6
  refine (concatenate_apply_piece (t := S512x1537) (1 : Fin 2) (rowPieces x0 x1 x2)
    concatenates_S512x512_S512x512_S512x1_S512x512_S512x1537_d1 _ 2 (by show (2 : ℕ) < 4; omega) S512x1 (val_main_v3 (F := Ideal) x0) rfl rfl 1024 rfl
    (ix2 b (0 : Fin 1)) (fun a ha => ?_) ?_).trans ?_
  · match a, ha with
    | ⟨0, _⟩, _ => rfl
    | ⟨1, _⟩, ha => exact absurd rfl ha
  · show 1024 + 0 = 1024; rfl
  · rw [val_main_v3_apply, val_main_v2_apply]
    unfold val_main_v1 timeEntry
    exact congrArg (· - Ideal.ofBits .f32 0x3F800000#32) (Cert.LibScalarCast.shapeCast_one_scalar_apply x0 shapeCasts_S1_S_ _)

/-- Entries 1025–1536 are the frequencies. -/
theorem mlp_freq (b l : Fin 512) :
    val_main_v6 (F := Ideal) x0 x1 x2 (ix2 b (⟨1025 + l.val, by have := l.isLt; omega⟩ : Fin 1537)) = matRow x2 b l := by
  unfold val_main_v6
  refine (concatenate_apply_piece (t := S512x1537) (1 : Fin 2) (rowPieces x0 x1 x2)
    concatenates_S512x512_S512x512_S512x1_S512x512_S512x1537_d1 _ 3 (by show (3 : ℕ) < 4; omega) S512x512 x2 rfl rfl 1025 rfl
    (ix2 b l) (fun a ha => ?_) ?_).trans rfl
  · match a, ha with
    | ⟨0, _⟩, _ => rfl
    | ⟨1, _⟩, ha => exact absurd rfl ha
  · show 1025 + l.val = 1025 + l.val; rfl

/-! ## The network, layer by layer -/

section Layers

variable (Wc Ws Wf : Mat 512 1538) (be : Row 1538)
  (hWc : ∀ (l : Fin 512) (j : Fin 1538), Wc (ix2 l j) = x4 (ix2 (⟨l.val, by have := l.isLt; omega⟩ : Fin 1537) j))
  (hWs : ∀ (l : Fin 512) (j : Fin 1538), Ws (ix2 l j) = x4 (ix2 (⟨512 + l.val, by have := l.isLt; omega⟩ : Fin 1537) j))
  (hWf : ∀ (l : Fin 512) (j : Fin 1538), Wf (ix2 l j) = x4 (ix2 (⟨1025 + l.val, by have := l.isLt; omega⟩ : Fin 1537) j))
  (hbe : ∀ j : Fin 1538, be (ix1 j) = x5 (ix1 j) + timeEntry x0 * x4 (ix2 (⟨1024, by omega⟩ : Fin 1537) j))

include hWc hWs hWf hbe

/-- The reference's first hidden layer is the split first layer: the 1537-long contraction regrouped. -/
theorem ref_h0 (b : Fin 512) (j : Fin 1538) :
    val_main_v11 (F := Ideal) x0 x1 x2 x4 x5 (ix2 b j) = hidden0 (phaseRow x1 b) (matRow x2 b) Wc Ws Wf be j := by
  rw [val_main_v11_apply, val_main_v10_apply, val_main_v7_apply, val_main_v9_apply, val_main_v8_apply]
  have e1 : ∀ k, lidx_main_v7 (ix2 b j) k = ix2 b k :=
    fun k => funext fun a => by match a with | ⟨0, _⟩ => rfl | ⟨1, _⟩ => rfl
  have e2 : ∀ k, ridx_main_v7 (ix2 b j) k = ix2 k j :=
    fun k => funext fun a => by match a with | ⟨0, _⟩ => rfl | ⟨1, _⟩ => rfl
  have e3 : idx_main_v8 (idx_main_v9 (ix2 b j)) = ix1 j := funext fun a => by match a with | ⟨0, _⟩ => rfl
  simp only [e1, e2, e3]
  unfold hidden0 contract
  refine congrArg Ideal.tanh ?_
  rw [hbe]
  exact first_layer_split (fun k => val_main_v6 (F := Ideal) x0 x1 x2 (ix2 b k)) (fun k => x4 (ix2 k j))
    (fun l => Ideal.cos (phaseRow x1 b l)) (fun l => Ideal.sin (phaseRow x1 b l)) (matRow x2 b)
    (fun l => Wc (ix2 l j)) (fun l => Ws (ix2 l j)) (fun l => Wf (ix2 l j)) (timeEntry x0)
    (x4 (ix2 (⟨1024, by omega⟩ : Fin 1537) j)) (x5 (ix1 j))
    (fun l => mlp_cos x0 x1 x2 b l) (fun l => mlp_sin x0 x1 x2 b l) (mlp_time x0 x1 x2 b) (fun l => mlp_freq x0 x1 x2 b l)
    (fun l => (hWc l j).symm) (fun l => (hWs l j).symm) rfl (fun l => (hWf l j).symm)

/-- The second hidden layer. -/
theorem ref_h1 (b : Fin 512) (j : Fin 1538) :
    val_main_v16 (F := Ideal) x0 x1 x2 x4 x5 x6 x7 (ix2 b j)
      = hidden (hidden0 (phaseRow x1 b) (matRow x2 b) Wc Ws Wf be) x6 x7 j := by
  rw [val_main_v16_apply, val_main_v15_apply, val_main_v12_apply, val_main_v14_apply, val_main_v13_apply]
  have e1 : ∀ k, lidx_main_v12 (ix2 b j) k = ix2 b k :=
    fun k => funext fun a => by match a with | ⟨0, _⟩ => rfl | ⟨1, _⟩ => rfl
  have e2 : ∀ k, ridx_main_v12 (ix2 b j) k = ix2 k j :=
    fun k => funext fun a => by match a with | ⟨0, _⟩ => rfl | ⟨1, _⟩ => rfl
  have e3 : idx_main_v13 (idx_main_v14 (ix2 b j)) = ix1 j := funext fun a => by match a with | ⟨0, _⟩ => rfl
  simp only [e1, e2, e3, ref_h0 x0 x1 x2 x4 x5 Wc Ws Wf be hWc hWs hWf hbe]
  rfl

/-- The third hidden layer. -/
theorem ref_h2 (b : Fin 512) (j : Fin 1538) :
    val_main_v21 (F := Ideal) x0 x1 x2 x4 x5 x6 x7 x8 x9 (ix2 b j)
      = hidden (hidden (hidden0 (phaseRow x1 b) (matRow x2 b) Wc Ws Wf be) x6 x7) x8 x9 j := by
  rw [val_main_v21_apply, val_main_v20_apply, val_main_v17_apply, val_main_v19_apply, val_main_v18_apply]
  have e1 : ∀ k, lidx_main_v17 (ix2 b j) k = ix2 b k :=
    fun k => funext fun a => by match a with | ⟨0, _⟩ => rfl | ⟨1, _⟩ => rfl
  have e2 : ∀ k, ridx_main_v17 (ix2 b j) k = ix2 k j :=
    fun k => funext fun a => by match a with | ⟨0, _⟩ => rfl | ⟨1, _⟩ => rfl
  have e3 : idx_main_v18 (idx_main_v19 (ix2 b j)) = ix1 j := funext fun a => by match a with | ⟨0, _⟩ => rfl
  simp only [e1, e2, e3, ref_h1 x0 x1 x2 x4 x5 x6 x7 Wc Ws Wf be hWc hWs hWf hbe]
  rfl

/-- The coupling strengths. -/
theorem ref_cf (b : Fin 512) (j : Fin 512) :
    val_main_v25 (F := Ideal) x0 x1 x2 x4 x5 x6 x7 x8 x9 x10 x11 (ix2 b j)
      = coupling (phaseRow x1 b) (matRow x2 b) Wc Ws Wf be x6 x7 x8 x9 x10 x11 j := by
  rw [val_main_v25_apply, val_main_v22_apply, val_main_v24_apply, val_main_v23_apply]
  have e1 : ∀ k, lidx_main_v22 (ix2 b j) k = ix2 b k :=
    fun k => funext fun a => by match a with | ⟨0, _⟩ => rfl | ⟨1, _⟩ => rfl
  have e2 : ∀ k, ridx_main_v22 (ix2 b j) k = ix2 k j :=
    fun k => funext fun a => by match a with | ⟨0, _⟩ => rfl | ⟨1, _⟩ => rfl
  have e3 : idx_main_v23 (idx_main_v24 (ix2 b j)) = ix1 j := funext fun a => by match a with | ⟨0, _⟩ => rfl
  simp only [e1, e2, e3, ref_h2 x0 x1 x2 x4 x5 x6 x7 x8 x9 Wc Ws Wf be hWc hWs hWf hbe]
  rfl

/-- The reference's force array is `forceArr`. -/
theorem ref_force (hy : ∀ i, ∃ r : ℝ, x1 i = (r : EReal)) (hA : ∀ i, ∃ r : ℝ, x3 i = (r : EReal)) :
    val_main_v41 (F := Ideal) x0 x1 x2 x3 x4 x5 x6 x7 x8 x9 x10 x11 = forceArr x1 x2 x3 Wc Ws Wf be x6 x7 x8 x9 x10 x11 := by
  funext i
  obtain ⟨b, k, rfl⟩ : ∃ (b k : Fin 512), i = ix2 b k := ⟨i 0, i 1, eq_ix2 i⟩
  rw [val_main_v41_apply, val_main_v40_apply, val_main_v38_apply, val_main_v37_apply, val_main_v36_apply, val_main_v39_apply,
    ref_cf x0 x1 x2 x4 x5 x6 x7 x8 x9 x10 x11 Wc Ws Wf be hWc hWs hWf hbe, ref_pair x1 x3 hy hA]
  rfl

/-- The reference's energy column is `energyArr`. -/
theorem ref_energy :
    val_main_v44 (F := Ideal) x0 x1 x2 x4 x5 x6 x7 x8 x9 x10 x11 = energyArr x1 x2 Wc Ws Wf be x6 x7 x8 x9 x10 x11 := by
  funext i
  obtain ⟨b, u, rfl⟩ : ∃ (b : Fin 512) (u : Fin 1), i = ix2 b u := ⟨i 0, i 1, eq_ix2 i⟩
  rw [val_main_v44_apply, val_main_v43_apply]
  have e : ∀ k : Fin 512, val_main_v42 (F := Ideal) x0 x1 x2 x4 x5 x6 x7 x8 x9 x10 x11 (idx_main_v43 (idx_main_v44 (ix2 b u)) k)
      = coupling (phaseRow x1 b) (matRow x2 b) Wc Ws Wf be x6 x7 x8 x9 x10 x11 k
        * coupling (phaseRow x1 b) (matRow x2 b) Wc Ws Wf be x6 x7 x8 x9 x10 x11 k := by
    intro k
    have ek : idx_main_v43 (idx_main_v44 (ix2 b u)) k = ix2 b k :=
      funext fun a => by match a with | ⟨0, _⟩ => rfl | ⟨1, _⟩ => rfl
    rw [val_main_v42_apply, ek, ref_cf x0 x1 x2 x4 x5 x6 x7 x8 x9 x10 x11 Wc Ws Wf be hWc hWs hWf hbe]
    rfl
  simp only [e]
  show Ideal.ofBits .f32 0x00000000#32 + _ = _
  rw [Ideal.ofBits_zero_f32, zero_add]
  rfl

end Layers

end Cert.Osc

end
-- ==== Proof.FiniteInputs.lean ====
/-
  From the precondition to real numbers.

  The precondition is the conjunction, over the twelve argument arrays, of "every entry x has |x| < +∞". An extended
  real whose absolute value max(x, −x) is strictly below +∞ is neither +∞ nor −∞, so it is a real number. Read for the
  phase array and for the coupling matrix, this is what the pairwise term's identity needs.
-/
import proofs.«104526_j37512244363645_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

namespace Cert.Osc

open Idealize.ShloMosaic Cert.Pre_finite_inputs

/-- The f32 word `0x7F800000` denotes `+∞`. -/
theorem ofBits_inf : Ideal.ofBits .f32 0x7F800000#32 = (⊤ : EReal) := by
  simp [Ideal.ofBits, Ideal.ieee]

/-- An extended real whose absolute value `max a (-a)` lies strictly below `+∞` is a real number. -/
theorem real_of_abs_lt_top (a : EReal) (h : Ideal.cmp .olt (max a (-a)) (⊤ : EReal) = 1#1) :
    ∃ r : ℝ, a = (r : EReal) := by
  induction a using EReal.rec with
  | bot => simp [Ideal.cmp] at h
  | top => simp [Ideal.cmp] at h
  | coe r => exact ⟨r, rfl⟩

/-- If the conjunction over all entries of `|x| < +∞` is true, every entry of `x` is a real number. -/
theorem real_of_all_lt_inf {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  haveI : Subsingleton S_.Idx := ⟨fun a b => funext fun d => d.elim0⟩
  have hi := Host.reduce_andi_all _ _ hr hu j e i
  rw [ValueIdx.cmpf_apply, ValueIdx.broadcastInDim_scalar_apply, ValueIdx.constant_apply, ofBits_inf] at hi
  exact real_of_abs_lt_top (x i) hi

/-- The finiteness precondition gives that every entry of the second and of the fourth input array is a real
    number: the precondition is the conjunction, over the twelve arrays, of "all entries have `|x| < +∞`"; peel the
    left-nested conjunction down to the second and the fourth conjunct and read each entrywise. -/
theorem reals_of_finite [Cert.Pre_finite_inputs.Facts]
    (x0 : FVec Ideal S1 .f32) (x1 : FVec Ideal S512x513 .f32) (x2 x3 : FVec Ideal S512x512 .f32)
    (x4 : FVec Ideal S1537x1538 .f32) (x5 : FVec Ideal S1538 .f32) (x6 : FVec Ideal S1538x1538 .f32)
    (x7 : FVec Ideal S1538 .f32) (x8 : FVec Ideal S1538x1538 .f32) (x9 : FVec Ideal S1538 .f32)
    (x10 : FVec Ideal S1538x512 .f32) (x11 : FVec Ideal S512 .f32)
    (h : Cert.Pre_finite_inputs.fn (F := Ideal) x0 x1 x2 x3 x4 x5 x6 x7 x8 x9 x10 x11 = fun _ => 1#1) :
    (∀ i, ∃ r : ℝ, x1 i = (r : EReal)) ∧ (∀ i, ∃ r : ℝ, x3 i = (r : EReal)) := by
  have h58 := congrFun h ValueIdx.ix0
  dsimp only [fn, fn_part1, fn_part2, fn_part3] at h58
  have h53 := (IntOp.andi_eq_one.1 h58).1
  have h48 := (IntOp.andi_eq_one.1 h53).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  obtain ⟨h13, h17⟩ := IntOp.andi_eq_one.1 h18
  have h8 := (IntOp.andi_eq_one.1 h13).1
  have h7 := (IntOp.andi_eq_one.1 h8).2
  exact ⟨real_of_all_lt_inf x1 _ _ _ _ h7, real_of_all_lt_inf x3 _ _ _ _ h17⟩

end Cert.Osc
-- ==== Proof.lean ====
/-
  The certificate's proof: the kernel and the reference compute one function at the exact reading of the floats.

  For one batch row with phases y and frequencies f, both programs return
  ((1 · c_i · p_i) / 512 + f_i)_i followed by Σ_i c_i², where c is the output of a three-hidden-layer tanh network on
  (cos y, sin y, t − 1, f) and p_i = Σ_j sin(y_j − y_i) · A[i,j]. The kernel splits the first layer's 1537-long
  contraction into three 512-long ones and folds the time entry into the bias (a regrouping of a sum, valid on all
  extended reals), and writes the pairwise term as cos(y_i) · Σ_j sin(y_j) A[i,j] − sin(y_i) · Σ_j cos(y_j) A[i,j]
  (the angle-difference identity and distributivity, valid because the precondition makes every phase and every
  coupling a real number). The three frames are the generated ones; the idealized kernel is the kernel's own text.
-/
import proofs.«104526_j37512244363645_2_alg».proof.Defs
import proofs.«104526_j37512244363645_2_alg».proof.Proof.Gen.Kernel
import proofs.«104526_j37512244363645_2_alg».proof.Proof.Gen.Kernel.Skeleton
import proofs.«104526_j37512244363645_2_alg».proof.Proof.Gen.Kernel.Launch
import proofs.«104526_j37512244363645_2_alg».proof.Proof.Gen.Kernel.Points
import proofs.«104526_j37512244363645_2_alg».proof.Proof.Gen.Kernel.Frame
import proofs.«104526_j37512244363645_2_alg».proof.Proof.Gen.KernelIdeal
import proofs.«104526_j37512244363645_2_alg».proof.Proof.Gen.KernelIdeal.Skeleton
import proofs.«104526_j37512244363645_2_alg».proof.Proof.Gen.KernelIdeal.Launch
import proofs.«104526_j37512244363645_2_alg».proof.Proof.Gen.KernelIdeal.Points
import proofs.«104526_j37512244363645_2_alg».proof.Proof.Gen.KernelIdeal.Frame
import proofs.«104526_j37512244363645_2_alg».proof.Proof.Gen.ReferenceIdeal
import proofs.«104526_j37512244363645_2_alg».proof.Proof.Gen.Pre_finite_inputs
import proofs.«104526_j37512244363645_2_alg».proof.Proof.Gen.ReferenceIdeal.Run
import proofs.«104526_j37512244363645_2_alg».proof.Proof.Gen.ReferenceIdeal.Read
import proofs.«104526_j37512244363645_2_alg».proof.Proof.KernelValue
import proofs.«104526_j37512244363645_2_alg».proof.Proof.KernelInputs
import proofs.«104526_j37512244363645_2_alg».proof.Proof.RefValue
import proofs.«104526_j37512244363645_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two result arrays agree: the reference's force array and energy column, of arguments equal to the kernel's,
    are the kernel's `forceArr` and `energyArr` of the arrays its region finds. -/
theorem results_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.Osc.result m c := by
  obtain ⟨hy, hA⟩ := Cert.Osc.reals_of_finite _ _ _ _ _ _ _ _ _ _ _ _ (hpre c)
  have hWc := Cert.Osc.V_v1_apply m c
  have hWs := Cert.Osc.V_v3_apply m c
  have hWf := Cert.Osc.V_v7_apply m c
  have hbe := Cert.Osc.V_v12_apply m c
  have hF := Cert.Osc.ref_force (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (Cert.KernelIdeal.Gen.V m c Cert.KernelIdeal.main_v1) (Cert.KernelIdeal.Gen.V m c Cert.KernelIdeal.main_v3)
    (Cert.KernelIdeal.Gen.V m c Cert.KernelIdeal.main_v7) (Cert.Osc.regB0 m c) hWc hWs hWf hbe hy hA
  have hE := Cert.Osc.ref_energy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (Cert.KernelIdeal.Gen.V m c Cert.KernelIdeal.main_v1) (Cert.KernelIdeal.Gen.V m c Cert.KernelIdeal.main_v3)
    (Cert.KernelIdeal.Gen.V m c Cert.KernelIdeal.main_v7) (Cert.Osc.regB0 m c) hWc hWs hWf hbe
  unfold Cert.ReferenceIdeal.Read.val_main_v45
  rw [hF, hE]
  show _ = concatenate Cert.KernelIdeal.S512x513 1 [⟨Cert.KernelIdeal.S512x512, Cert.Osc.G13 m c⟩, ⟨Cert.KernelIdeal.S512x1, Cert.Osc.G14 m c⟩] _
  unfold Cert.Osc.G13 Cert.Osc.G14
  rw [Cert.KernelIdeal.Gen.V_main_arg1 m c, Cert.KernelIdeal.Gen.V_main_arg2 m c, Cert.KernelIdeal.Gen.V_main_arg7 m c,
    Cert.KernelIdeal.Gen.V_main_arg9 m c, Cert.KernelIdeal.Gen.V_main_arg11 m c, Cert.Osc.V_v13 m c, Cert.Osc.V_v14 m c,
    Cert.Osc.V_v15 m c, Cert.Osc.V_v16 m c]

/-- At the exact reading the idealized kernel and the idealized reference, run from memories that agree on the
    arguments, both end, with equal results and unchanged arguments. -/
theorem algebraic : Cert.algebraic_KernelIdeal_ReferenceIdeal := by
  intro m ρ m' ρ' hpre hagree
  refine ⟨fun c => Cert.Osc.result m c, Cert.Osc.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v45_eq, h0, h1, h2, h3, h4, h5, h6, h7, h8, h9, h10, h11]
  exact results_eq m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
